-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1048576 : Shape := ⟨2, ![16, 1048576]⟩
abbrev S_ : Shape := ⟨0, ![]⟩

class Facts : Prop where
  bcast_S_S16x1048576 : S_.BroadcastsInDim S16x1048576 (![] : Fin 0 → Fin S16x1048576.rank)
  reducesTo_S16x1048576_S_d0_1 : S16x1048576.ReducesTo [0, 1] S_
  h_S_ : 0 < S_.numel

variable [Facts]

def fn {F : FTy → Type} [FloatOps F] (main_arg0 : FVec F S16x1048576 .f32) : IVec S_ 1 :=
  let main_v0 : FVec F S16x1048576 .f32 := Host.absf main_arg0
  let main_cst : FVec F S_ .f32 := constant S_ .f32 0x7F800000#32
  let main_v1 : FVec F S16x1048576 .f32 := broadcastInDim S16x1048576 ![] bcast_S_S16x1048576 main_cst
  let main_v2 : IVec S16x1048576 1 := cmpf .olt main_v0 main_v1
  let main_c : IVec S_ 1 := constantI S_ 1 1#1
  let main_v3 : IVec S_ 1 := (fun x v => Host.reduce IntOp.andi x v reducesTo_S16x1048576_S_d0_1 h_S_) main_v2 main_c
  main_v3
-- ==== Kernel.lean ====
abbrev S16x1048576 : Shape := ⟨2, ![16, 1048576]⟩
abbrev S16x4096x256 : Shape := ⟨3, ![16, 4096, 256]⟩
abbrev S16x256 : Shape := ⟨2, ![16, 256]⟩
abbrev S16x1x256 : Shape := ⟨3, ![16, 1, 256]⟩
abbrev S16x2x256 : Shape := ⟨3, ![16, 2, 256]⟩
abbrev S16x32x128 : Shape := ⟨3, ![16, 32, 128]⟩
abbrev S1x4096x256 : Shape := ⟨3, ![1, 4096, 256]⟩
abbrev S1x2x256 : Shape := ⟨3, ![1, 2, 256]⟩
abbrev S1x32x128 : Shape := ⟨3, ![1, 32, 128]⟩
abbrev S4096x256 : Shape := ⟨2, ![4096, 256]⟩
abbrev S4096x128 : Shape := ⟨2, ![4096, 128]⟩
abbrev S2x256 : Shape := ⟨2, ![2, 256]⟩
abbrev S2x128 : Shape := ⟨2, ![2, 128]⟩
abbrev S4100x128 : Shape := ⟨2, ![4100, 128]⟩
abbrev S4096 : Shape := ⟨1, ![4096]⟩
abbrev S4096x1 : Shape := ⟨2, ![4096, 1]⟩
abbrev S32x128 : Shape := ⟨2, ![32, 128]⟩
abbrev S16x4096x1 : Shape := ⟨3, ![16, 4096, 1]⟩

abbrev nBuf : Space → Nat
  | .hbm => 14
  | .vmem => 8
  | .smem => 0
  | _ => 0

abbrev bufTy : (tb : Table) → Fin (tcTables nBuf tb) → BufTy
  | .hbm, ⟨0, _⟩ => ⟨S16x1048576, .f32⟩
  | .hbm, ⟨1, _⟩ => ⟨S16x4096x256, .f32⟩
  | .hbm, ⟨2, _⟩ => ⟨S16x256, .f32⟩
  | .hbm, ⟨3, _⟩ => ⟨S16x256, .f32⟩
  | .hbm, ⟨4, _⟩ => ⟨S16x1x256, .f32⟩
  | .hbm, ⟨5, _⟩ => ⟨S16x1x256, .f32⟩
  | .hbm, ⟨6, _⟩ => ⟨S16x2x256, .f32⟩
  | .hbm, ⟨7, _⟩ => ⟨S16x256, .f32⟩
  | .hbm, ⟨8, _⟩ => ⟨S16x256, .f32⟩
  | .hbm, ⟨9, _⟩ => ⟨S16x1x256, .f32⟩
  | .hbm, ⟨10, _⟩ => ⟨S16x1x256, .f32⟩
  | .hbm, ⟨11, _⟩ => ⟨S16x2x256, .f32⟩
  | .hbm, ⟨12, _⟩ => ⟨S16x32x128, .f32⟩
  | .hbm, ⟨13, _⟩ => ⟨S16x4096x1, .f32⟩
  | .local _ .vmem, ⟨0, _⟩ => ⟨S1x4096x256, .f32⟩
  | .local _ .vmem, ⟨1, _⟩ => ⟨S1x4096x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x32x128, .f32⟩
  | .local _ .vmem, ⟨7, _⟩ => ⟨S1x32x128, .f32⟩
  | _, _ => ⟨S16x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x1048576_S16x4096x256 : S16x1048576.ShapeCasts S16x4096x256
  slices_S16x1048576_S16x256_0_257 : S16x1048576.Slices ![0, 257] S16x256
  slices_S16x1048576_S16x256_0_1 : S16x1048576.Slices ![0, 1] S16x256
  bcast_S16x256_S16x1x256_0_2 : S16x256.BroadcastsInDim S16x1x256 (![0, 2] : Fin 2 → Fin S16x1x256.rank)
  concatenates_S16x1x256_S16x1x256_S16x2x256_d1 : Shape.Concatenates [S16x1x256, S16x1x256] S16x2x256 1
  slices_S16x1048576_S16x256_0_1048319 : S16x1048576.Slices ![0, 1048319] S16x256
  slices_S16x1048576_S16x256_0_1048063 : S16x1048576.Slices ![0, 1048063] S16x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  slices_S4096x256_o0_0_S4096x128 : S4096x256.Slices ![0, 0] S4096x128
  slices_S4096x256_o0_128_S4096x128 : S4096x256.Slices ![0, 128] S4096x128
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  slices_S2x256_o0_0_S2x128 : S2x256.Slices ![0, 0] S2x128
  slices_S2x256_o0_128_S2x128 : S2x256.Slices ![0, 128] S2x128
  concatenates_S2x128_S4096x128_S2x128_S4100x128_d0 : Shape.Concatenates [S2x128, S4096x128, S2x128] S4100x128 0
  slices_S4100x128_o0_0_S4096x128 : S4100x128.Slices ![0, 0] S4096x128
  slices_S4100x128_o1_0_S4096x128 : S4100x128.Slices ![1, 0] S4096x128
  slices_S4100x128_o2_0_S4096x128 : S4100x128.Slices ![2, 0] S4096x128
  slices_S4100x128_o3_0_S4096x128 : S4100x128.Slices ![3, 0] S4096x128
  reduces_S4096x128_S4096 : S4096x128.Reduces [1] S4096
  shapeCasts_S4096_S4096x1 : S4096.ShapeCasts S4096x1
  shapeCasts_S4096x1_S32x128 : S4096x1.ShapeCasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  shapeCasts_S16x32x128_S16x4096x1 : S16x32x128.ShapeCasts S16x4096x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S16x4096x256.size a
  hwx0_0 : ∀ i : grid0.Coords, EltTy.bits .f32 = 32 ∨ (Rect.block (s := S16x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x256.size a ≤ S16x2x256.size a
  hwx0_1 : ∀ i : grid0.Coords, EltTy.bits .f32 = 32 ∨ (Rect.block (s := S16x2x256) S1x2x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x256.size a ≤ S16x2x256.size a
  hwx0_2 : ∀ i : grid0.Coords, EltTy.bits .f32 = 32 ∨ (Rect.block (s := S16x2x256) S1x2x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S16x32x128.size a
  hwx0_3 : ∀ i : grid0.Coords, EltTy.bits .f32 = 32 ∨ (Rect.block (s := S16x32x128) S1x32x128.size (cc0_transform_3 i) (hinb0_3 i)).WholeWords (EltTy.packing .f32)

variable [Facts₀]

abbrev win0_0 : Pipeline.Window sig grid0 :=
  Pipeline.Window.ofSpec (Memref.whole main_v0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1048576 : Shape := ⟨2, ![16, 1048576]⟩
abbrev S_ : Shape := ⟨0, ![]⟩
abbrev S16x1 : Shape := ⟨2, ![16, 1]⟩
abbrev S16x512 : Shape := ⟨2, ![16, 512]⟩
abbrev S16x1049088 : Shape := ⟨2, ![16, 1049088]⟩
abbrev S16x1049600 : Shape := ⟨2, ![16, 1049600]⟩
abbrev S4097 : Shape := ⟨1, ![4097]⟩
abbrev S4097x1 : Shape := ⟨2, ![4097, 1]⟩
abbrev S1024 : Shape := ⟨1, ![1024]⟩
abbrev S1x1024 : Shape := ⟨2, ![1, 1024]⟩
abbrev S4097x1024 : Shape := ⟨2, ![4097, 1024]⟩
abbrev S4097x1024x1 : Shape := ⟨3, ![4097, 1024, 1]⟩
abbrev S16x4097x1024 : Shape := ⟨3, ![16, 4097, 1024]⟩
abbrev S16x4096x1024 : Shape := ⟨3, ![16, 4096, 1024]⟩
abbrev S16x4096 : Shape := ⟨2, ![16, 4096]⟩
abbrev S16x4096x1 : Shape := ⟨3, ![16, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x1048576, .f32⟩
  | .hbm, ⟨1, _⟩ => ⟨S_, .i32⟩
  | .hbm, ⟨2, _⟩ => ⟨S16x1, .f32⟩
  | .hbm, ⟨3, _⟩ => ⟨S16x512, .f32⟩
  | .hbm, ⟨4, _⟩ => ⟨S16x512, .f32⟩
  | .hbm, ⟨5, _⟩ => ⟨S16x1049088, .f32⟩
  | .hbm, ⟨6, _⟩ => ⟨S16x1, .f32⟩
  | .hbm, ⟨7, _⟩ => ⟨S16x512, .f32⟩
  | .hbm, ⟨8, _⟩ => ⟨S16x512, .f32⟩
  | .hbm, ⟨9, _⟩ => ⟨S16x1049600, .f32⟩
  | .hbm, ⟨10, _⟩ => ⟨S4097, .i32⟩
  | .hbm, ⟨11, _⟩ => ⟨S4097x1, .i32⟩
  | .hbm, ⟨12, _⟩ => ⟨S_, .i32⟩
  | .hbm, ⟨13, _⟩ => ⟨S4097x1, .i32⟩
  | .hbm, ⟨14, _⟩ => ⟨S4097x1, .i32⟩
  | .hbm, ⟨15, _⟩ => ⟨S1024, .i32⟩
  | .hbm, ⟨16, _⟩ => ⟨S1x1024, .i32⟩
  | .hbm, ⟨17, _⟩ => ⟨S4097x1024, .i32⟩
  | .hbm, ⟨18, _⟩ => ⟨S4097x1024, .i32⟩
  | .hbm, ⟨19, _⟩ => ⟨S4097x1024, .i32⟩
  | .hbm, ⟨20, _⟩ => ⟨S_, .i32⟩
  | .hbm, ⟨21, _⟩ => ⟨S4097x1024, .i32⟩
  | .hbm, ⟨22, _⟩ => ⟨S4097x1024, .i1⟩
  | .hbm, ⟨23, _⟩ => ⟨S_, .i32⟩
  | .hbm, ⟨24, _⟩ => ⟨S4097x1024, .i32⟩
  | .hbm, ⟨25, _⟩ => ⟨S4097x1024, .i32⟩
  | .hbm, ⟨26, _⟩ => ⟨S4097x1024, .i32⟩
  | .hbm, ⟨27, _⟩ => ⟨S4097x1024x1, .i32⟩
  | .hbm, ⟨28, _⟩ => ⟨S16x4097x1024, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x4096, .f32⟩
  | .hbm, ⟨33, _⟩ => ⟨S16x4096x1, .f32⟩
  | .hbm, ⟨34, _⟩ => ⟨S_, .f32⟩
  | .hbm, ⟨35, _⟩ => ⟨S16x4096x1, .f32⟩
  | .hbm, ⟨36, _⟩ => ⟨S16x4096x1, .f32⟩
  | .hbm, ⟨37, _⟩ => ⟨S16x4096x1, .f32⟩
  | _, _ => ⟨S16x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  slices_S16x1048576_S16x1_0_0 : S16x1048576.Slices ![0, 0] S16x1
  slices_S16x1048576_S16x512_0_1 : S16x1048576.Slices ![0, 1] S16x512
  concatenates_S16x512_S16x1048576_S16x1049088_d1 : Shape.Concatenates [S16x512, S16x1048576] S16x1049088 1
  slices_S16x1049088_S16x1_0_1049087 : S16x1049088.Slices ![0, 1049087] S16x1
  slices_S16x1049088_S16x512_0_1048575 : S16x1049088.Slices ![0, 1048575] S16x512
  concatenates_S16x1049088_S16x512_S16x1049600_d1 : Shape.Concatenates [S16x1049088, S16x512] S16x1049600 1
  bcast_S4097_S4097x1_0 : S4097.BroadcastsInDim S4097x1 (![0] : Fin 1 → Fin S4097x1.rank)
  bcast_S_S4097x1 : S_.BroadcastsInDim S4097x1 (![] : Fin 0 → Fin S4097x1.rank)
  bcast_S1024_S1x1024_1 : S1024.BroadcastsInDim S1x1024 (![1] : Fin 1 → Fin S1x1024.rank)
  bcast_S4097x1_S4097x1024_0_1 : S4097x1.BroadcastsInDim S4097x1024 (![0, 1] : Fin 2 → Fin S4097x1024.rank)
  bcast_S1x1024_S4097x1024_0_1 : S1x1024.BroadcastsInDim S4097x1024 (![0, 1] : Fin 2 → Fin S4097x1024.rank)
  bcast_S_S4097x1024 : S_.BroadcastsInDim S4097x1024 (![] : Fin 0 → Fin S4097x1024.rank)
  bcast_S4097x1024_S4097x1024x1_0_1 : S4097x1024.BroadcastsInDim S4097x1024x1 (![0, 1] : Fin 2 → Fin S4097x1024x1.rank)
  slices_S16x4097x1024_S16x4096x1024_0_0_0 : S16x4097x1024.Slices ![0, 0, 0] S16x4096x1024
  reducesTo_S16x4096x1024_S16x4096_d2 : S16x4096x1024.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  gather_S16x1049600_S4097x1024x1_S16x4097x1024_0_1_n_n_1_2_161_wf : GatherDims.WF S16x1049600 S4097x1024x1 S16x4097x1024 [0] [1] [] [1] [] 2 ![16, 1]

variable [Facts₀]

def gather_S16x1049600_S4097x1024x1_S16x4097x1024_0_1_n_n_1_2_161 : GatherDims S16x1049600 S4097x1024x1 S16x4097x1024 where
  offsetDims := [0]
  collapsedSliceDims := [1]
  operandBatchingDims := []
  startIndicesBatchingDims := []
  startIndexMap := [1]
  indexVectorDim := 2
  sliceSizes := ![16, 1]
  wf := gather_S16x1049600_S4097x1024x1_S16x4097x1024_0_1_n_n_1_2_161_wf

class Facts : Prop extends Facts₀ where

variable [Facts]
-- ==== Proof.Spec.lean ====
/-
  The specification both programs are read against: the RMS energy of overlapping frames of a
  reflect-padded signal row, written twice over one row `s : ℕ → EReal` of the signal.

  * `xpad s j`  — entry `j` of the row padded by reflection with 512 entries on each side
    (no edge entry repeated): `s (512 - j)` on the left pad, `s (j - 512)` on the body,
    `s (2 T + 510 - j)` on the right pad (`T = 1048576`).
  * `refE s f`  — frame `f` as the reference computes it: the square root of the quotient by 1024 of
    zero plus the sum of the 1024 squares `xpad s (256 f + n)²`.
  * `chunk s j h` — entry `h` of the 256-wide padded chunk `j` as the kernel's three operands hold it:
    chunks 0, 1 and 4098, 4099 are slices of the row in increasing order (so a reflected chunk is held
    reversed), chunks 2 … 4097 are the row's own chunks.
  * `part s j l`  — lane `l` of chunk `j`'s partial sum of squares: entry `l` squared plus entry `128 + l` squared.
  * `kerE s f`  — frame `f` as the kernel computes it: over the 128 lanes the sum of the four
    consecutive chunks' partial sums, times 2⁻¹⁰, under the square root.
  `row x b` reads row `b` of a [16, 1048576] array as such a function.
-/
import Idealize.ShloMosaic.PureOps.Ideal
import Idealize.ShloMosaic.Lib.ValueIdx

noncomputable section

open scoped BigOperators

namespace Cert.Energy

open Idealize.ShloMosaic Idealize.ShloMosaic.ValueIdx

/-- Row `b` of a [16, 1048576] array of extended reals, as a function of the position (zero outside the row). -/
def row (x : (⟨2, ![16, 1048576]⟩ : Shape).Idx → EReal) (b : Fin 16) : ℕ → EReal :=
  fun i => if h : i < 1048576 then x (ix2 b ⟨i, h⟩) else 0

/-- Entry `j` of the row padded by reflection, 512 entries on each side. -/
def xpad (s : ℕ → EReal) (j : ℕ) : EReal :=
  if j < 512 then s (512 - j) else if j < 1049088 then s (j - 512) else s (2097662 - j)

/-- Frame `f`'s energy as the reference writes it. -/
def refE (s : ℕ → EReal) (f : ℕ) : EReal :=
  Ideal.sqrt (Ideal.div
    (Ideal.ofBits .f32 0x00000000#32 + ∑ n : Fin 1024, xpad s (256 * f + n.val) * xpad s (256 * f + n.val))
    (Ideal.ofBits .f32 0x44800000#32))

/-- Entry `h` of padded chunk `j` as the kernel's operands hold it. -/
def chunk (s : ℕ → EReal) (j h : ℕ) : EReal :=
  if j = 0 then s (257 + h) else if j = 1 then s (1 + h) else if j < 4098 then s ((j - 2) * 256 + h)
  else if j = 4098 then s (1048319 + h) else s (1048063 + h)

/-- Lane `l` of chunk `j`'s partial sum of squares. -/
def part (s : ℕ → EReal) (j l : ℕ) : EReal :=
  chunk s j l * chunk s j l + chunk s j (128 + l) * chunk s j (128 + l)

/-- Frame `f`'s energy as the kernel writes it. -/
def kerE (s : ℕ → EReal) (f : ℕ) : EReal :=
  Ideal.sqrt ((∑ l : Fin 128, (((part s f l.val + part s (f + 1) l.val) + part s (f + 2) l.val) + part s (f + 3) l.val))
    * Ideal.ofBits .f32 0x3A800000#32)

/-- The result array [16, 4096, 1] as the reference writes it, from the argument array. -/
def outRef (x : (⟨2, ![16, 1048576]⟩ : Shape).Idx → EReal) : (⟨3, ![16, 4096, 1]⟩ : Shape).Idx → EReal :=
  fun i => refE (row x (i 0)) (i 1).val

/-- The result array [16, 4096, 1] as the kernel writes it, from the argument array. -/
def outKer (x : (⟨2, ![16, 1048576]⟩ : Shape).Idx → EReal) : (⟨3, ![16, 4096, 1]⟩ : Shape).Idx → EReal :=
  fun i => kerE (row x (i 0)) (i 1).val

end Cert.Energy

end
-- ==== Proof.EnergyConsts.lean ====
/-
  The three float words the two programs spell, as the extended reals they denote:
  `+0.0` is `0`, `1024.0` is the real `1024`, and `2⁻¹⁰` is the real `1/1024`.
  Stated once here so that the evaluation of the bit patterns happens in one module only.
-/
import Idealize.ShloMosaic.PureOps.Ideal
import Idealize.ShloMosaic.PureOps.Ideal.Laws

noncomputable section

namespace Cert.Energy

open Idealize.ShloMosaic

/-- The word `0x00000000` denotes `0`. -/
theorem ofBits_zero : Ideal.ofBits .f32 0x00000000#32 = 0 := Ideal.ofBits_zero_f32

/-- The word `0x44800000` (sign 0, exponent 137, fraction 0) denotes `2¹⁰ = 1024`. -/
theorem ofBits_1024 : Ideal.ofBits .f32 0x44800000#32 = ((1024 : ℝ) : EReal) := by
  simp [Ideal.ofBits, Ideal.ieee, -EReal.coe_mul]; norm_num

/-- The word `0x3A800000` (sign 0, exponent 117, fraction 0) denotes `2⁻¹⁰ = 1/1024`. -/
theorem ofBits_inv1024 : Ideal.ofBits .f32 0x3A800000#32 = ((1 / 1024 : ℝ) : EReal) := by
  simp [Ideal.ofBits, Ideal.ieee, -EReal.coe_mul]; norm_num

end Cert.Energy

end
-- ==== Proof.EnergyLaw.lean ====
/-
  The algebraic law behind the frame energies: the sum of the 1024 squares of a frame of the
  reflect-padded row, taken in order, equals the sum over 128 lanes of the partial sums of the four
  256-wide chunks the frame is made of, where the reflected chunks are held reversed.

  Addition in the extended reals is commutative and associative everywhere (with the convention
  ⊤ + ⊥ = ⊥), so every step below is a re-indexing of a finite sum in an additive commutative
  monoid; no finiteness of the entries is needed.

  * A sum over 1024 consecutive positions splits into four sums over 256 consecutive positions.
  * A sum over 256 positions is the sum over 128 lanes of entry l plus entry 128 + l.
  * A sum over 256 positions is unchanged by the reversal h ↦ 255 - h; chunks 0, 1 and 4098 of the
    padded row lie in the reflected pads, and the operands hold them reversed.
  * Chunks 2 … 4097 are the row's own chunks, entry by entry.
  Finally the quotient by 1024 is the product by 1/1024.
-/
import proofs.«111157_j30889404793022_2_alg».proof.Proof.Spec
import proofs.«111157_j30889404793022_2_alg».proof.Proof.EnergyConsts
import Mathlib.Algebra.BigOperators.Intervals
import Mathlib.Data.Fintype.BigOperators

noncomputable section

open scoped BigOperators

namespace Cert.Energy

open Idealize.ShloMosaic Idealize.ShloMosaic.ValueIdx

section Sums

variable {M : Type*} [AddCommMonoid M]

/-- 1024 consecutive terms are four runs of 256 consecutive terms. -/
theorem sum_range_1024 (g : ℕ → M) :
    ∑ n ∈ Finset.range 1024, g n =
      ((∑ h ∈ Finset.range 256, g h + ∑ h ∈ Finset.range 256, g (256 + h))
        + ∑ h ∈ Finset.range 256, g (512 + h)) + ∑ h ∈ Finset.range 256, g (768 + h) := by
  have h3 := Finset.sum_range_add g 768 256
  have h2 := Finset.sum_range_add g 512 256
  have h1 := Finset.sum_range_add g 256 256
  exact h3.trans (congrArg₂ (· + ·) (h2.trans (congrArg₂ (· + ·) h1 rfl)) rfl)

/-- 256 consecutive terms, summed as 128 lanes of two terms each. -/
theorem sum_range_256_halves (c : ℕ → M) :
    ∑ h ∈ Finset.range 256, c h = ∑ l ∈ Finset.range 128, (c l + c (128 + l)) := by
  have h1 := Finset.sum_range_add c 128 128
  exact h1.trans Finset.sum_add_distrib.symm

/-- 256 consecutive terms, summed in the reverse order. -/
theorem sum_range_256_reflect (c : ℕ → M) :
    ∑ h ∈ Finset.range 256, c (255 - h) = ∑ h ∈ Finset.range 256, c h :=
  Finset.sum_range_reflect c 256

/-- The sum of a four-term sum is the four-term sum of the sums. -/
theorem sum_four (a b c d : ℕ → M) (n : ℕ) :
    ∑ l ∈ Finset.range n, (((a l + b l) + c l) + d l) =
      ((∑ l ∈ Finset.range n, a l + ∑ l ∈ Finset.range n, b l) + ∑ l ∈ Finset.range n, c l)
        + ∑ l ∈ Finset.range n, d l := by
  rw [Finset.sum_add_distrib, Finset.sum_add_distrib, Finset.sum_add_distrib]

/-- The 1024 positions of frame f are the 256 positions of each of the chunks f, f+1, f+2, f+3. -/
theorem frame_split (g : ℕ → M) (f : ℕ) :
    ∑ n ∈ Finset.range 1024, g (256 * f + n) =
      ((∑ h ∈ Finset.range 256, g (256 * f + h) + ∑ h ∈ Finset.range 256, g (256 * (f + 1) + h))
        + ∑ h ∈ Finset.range 256, g (256 * (f + 2) + h)) + ∑ h ∈ Finset.range 256, g (256 * (f + 3) + h) := by
  refine (sum_range_1024 (fun n => g (256 * f + n))).trans ?_
  have e : ∀ k c : ℕ, c = 256 * k →
      (∑ h ∈ Finset.range 256, g (256 * f + (c + h))) = ∑ h ∈ Finset.range 256, g (256 * (f + k) + h) := by
    intro k c hc
    exact Finset.sum_congr rfl (fun h _ => congrArg g (by omega))
  exact congrArg₂ (· + ·) (congrArg₂ (· + ·) (congrArg₂ (· + ·) rfl (e 1 256 rfl)) (e 2 512 rfl)) (e 3 768 rfl)

end Sums

/-! ### The chunks, entry by entry -/

/-- Chunk 0 lies in the left pad and is held reversed. -/
theorem chunk_zero (s : ℕ → EReal) {h : ℕ} (hh : h < 256) :
    chunk s 0 h = xpad s (256 * 0 + (255 - h)) := by
  have e1 : chunk s 0 h = s (257 + h) := by
    unfold chunk
    rw [if_pos rfl]
  have e2 : xpad s (256 * 0 + (255 - h)) = s (512 - (256 * 0 + (255 - h))) := by
    unfold xpad
    rw [if_pos (show 256 * 0 + (255 - h) < 512 by omega)]
  rw [e1, e2]
  exact congrArg s (by omega)

/-- Chunk 1 lies in the left pad and is held reversed. -/
theorem chunk_one (s : ℕ → EReal) {h : ℕ} (hh : h < 256) :
    chunk s 1 h = xpad s (256 * 1 + (255 - h)) := by
  have e1 : chunk s 1 h = s (1 + h) := by
    unfold chunk
    rw [if_neg (show ¬ (1 : ℕ) = 0 by omega), if_pos rfl]
  have e2 : xpad s (256 * 1 + (255 - h)) = s (512 - (256 * 1 + (255 - h))) := by
    unfold xpad
    rw [if_pos (show 256 * 1 + (255 - h) < 512 by omega)]
  rw [e1, e2]
  exact congrArg s (by omega)

/-- Chunks 2 … 4097 are the row's own chunks. -/
theorem chunk_mid (s : ℕ → EReal) {j h : ℕ} (hj2 : 2 ≤ j) (hj : j ≤ 4097) (hh : h < 256) :
    chunk s j h = xpad s (256 * j + h) := by
  have e1 : chunk s j h = s ((j - 2) * 256 + h) := by
    unfold chunk
    rw [if_neg (show ¬ j = 0 by omega), if_neg (show ¬ j = 1 by omega), if_pos (show j < 4098 by omega)]
  have e2 : xpad s (256 * j + h) = s (256 * j + h - 512) := by
    unfold xpad
    rw [if_neg (show ¬ 256 * j + h < 512 by omega), if_pos (show 256 * j + h < 1049088 by omega)]
  rw [e1, e2]
  exact congrArg s (by omega)

/-- Chunk 4098 lies in the right pad and is held reversed. -/
theorem chunk_last (s : ℕ → EReal) {h : ℕ} (hh : h < 256) :
    chunk s 4098 h = xpad s (256 * 4098 + (255 - h)) := by
  have e1 : chunk s 4098 h = s (1048319 + h) := by
    unfold chunk
    rw [if_neg (show ¬ (4098 : ℕ) = 0 by omega), if_neg (show ¬ (4098 : ℕ) = 1 by omega),
      if_neg (show ¬ (4098 : ℕ) < 4098 by omega), if_pos rfl]
  have e2 : xpad s (256 * 4098 + (255 - h)) = s (2097662 - (256 * 4098 + (255 - h))) := by
    unfold xpad
    rw [if_neg (show ¬ 256 * 4098 + (255 - h) < 512 by omega),
      if_neg (show ¬ 256 * 4098 + (255 - h) < 1049088 by omega)]
  rw [e1, e2]
  exact congrArg s (by omega)

/-! ### The chunks' sums of squares -/

/-- A chunk held in order has the padded row's sum of squares over its 256 positions. -/
theorem chunk_sum_of_direct (s : ℕ → EReal) (j : ℕ)
    (H : ∀ h, h < 256 → chunk s j h = xpad s (256 * j + h)) :
    ∑ h ∈ Finset.range 256, chunk s j h * chunk s j h =
      ∑ h ∈ Finset.range 256, xpad s (256 * j + h) * xpad s (256 * j + h) :=
  Finset.sum_congr rfl (fun h hh => by rw [H h (Finset.mem_range.mp hh)])

/-- A chunk held reversed has the padded row's sum of squares over its 256 positions as well. -/
theorem chunk_sum_of_reflect (s : ℕ → EReal) (j : ℕ)
    (H : ∀ h, h < 256 → chunk s j h = xpad s (256 * j + (255 - h))) :
    ∑ h ∈ Finset.range 256, chunk s j h * chunk s j h =
      ∑ h ∈ Finset.range 256, xpad s (256 * j + h) * xpad s (256 * j + h) := by
  refine Eq.trans ?_ (sum_range_256_reflect (fun h => xpad s (256 * j + h) * xpad s (256 * j + h)))
  exact Finset.sum_congr rfl (fun h hh => by rw [H h (Finset.mem_range.mp hh)])

/-- Every chunk up to 4098 has the padded row's sum of squares over its 256 positions. -/
theorem chunk_sum (s : ℕ → EReal) {j : ℕ} (hj : j ≤ 4098) :
    ∑ h ∈ Finset.range 256, chunk s j h * chunk s j h =
      ∑ h ∈ Finset.range 256, xpad s (256 * j + h) * xpad s (256 * j + h) := by
  have cases : j = 0 ∨ j = 1 ∨ (2 ≤ j ∧ j ≤ 4097) ∨ j = 4098 := by omega
  rcases cases with rfl | rfl | ⟨h2, h3⟩ | rfl
  · exact chunk_sum_of_reflect s 0 (fun h hh => chunk_zero s hh)
  · exact chunk_sum_of_reflect s 1 (fun h hh => chunk_one s hh)
  · exact chunk_sum_of_direct s j (fun h hh => chunk_mid s h2 h3 hh)
  · exact chunk_sum_of_reflect s 4098 (fun h hh => chunk_last s hh)

/-- The 128 lanes of a chunk's partial sums add up to the padded row's sum of squares over the chunk. -/
theorem part_sum (s : ℕ → EReal) {j : ℕ} (hj : j ≤ 4098) :
    ∑ l ∈ Finset.range 128, part s j l =
      ∑ h ∈ Finset.range 256, xpad s (256 * j + h) * xpad s (256 * j + h) :=
  (sum_range_256_halves (fun h => chunk s j h * chunk s j h)).symm.trans (chunk_sum s hj)

/-- The two sums: the kernel's lanes of four partial sums against the reference's 1024 squares. -/
theorem lanes_eq_frame (s : ℕ → EReal) (f : ℕ) (hf : f < 4096) :
    ∑ l : Fin 128, (((part s f l.val + part s (f + 1) l.val) + part s (f + 2) l.val) + part s (f + 3) l.val) =
      ∑ n : Fin 1024, xpad s (256 * f + n.val) * xpad s (256 * f + n.val) := by
  have hL := Fin.sum_univ_eq_sum_range
    (fun l => (((part s f l + part s (f + 1) l) + part s (f + 2) l) + part s (f + 3) l)) 128
  have hR := Fin.sum_univ_eq_sum_range (fun n => xpad s (256 * f + n) * xpad s (256 * f + n)) 1024
  refine hL.trans (Eq.trans ?_ hR.symm)
  refine (sum_four (part s f) (part s (f + 1)) (part s (f + 2)) (part s (f + 3)) 128).trans ?_
  rw [part_sum s (show f ≤ 4098 by omega), part_sum s (show f + 1 ≤ 4098 by omega),
    part_sum s (show f + 2 ≤ 4098 by omega), part_sum s (show f + 3 ≤ 4098 by omega)]
  exact (frame_split (fun k => xpad s k * xpad s k) f).symm

/-- Frame by frame, the kernel's energy is the reference's energy. -/
theorem kerE_eq_refE (s : ℕ → EReal) (f : ℕ) (hf : f < 4096) : kerE s f = refE s f := by
  unfold kerE refE
  rw [ofBits_zero, ofBits_1024, ofBits_inv1024, zero_add,
    Ideal.div_coe (show (1024 : ℝ) ≠ 0 by norm_num), lanes_eq_frame s f hf]

/-- The result arrays agree: the kernel's array is the reference's array. -/
theorem outKer_eq_outRef (x : (⟨2, ![16, 1048576]⟩ : Shape).Idx → EReal) : outKer x = outRef x := by
  funext i
  have hi : (i 1).val < 4096 := (i 1).isLt
  exact kerE_eq_refE (row x (i 0)) (i 1).val hi

end Cert.Energy

end
-- ==== Proof.KerHost.lean ====
/-
  What the kernel's three input arrays hold when its region is entered, read at an index, as
  entries of the argument array `x` (the signal, [16, 1048576]):

  * the main operand [16, 4096, 256] is the signal re-laid row-major: entry (b, j, h) is `x (b, 256 j + h)`;
  * the left operand [16, 2, 256] stacks the slices of columns 257 … 512 and 1 … 256:
    entry (b, 0, h) is `x (b, 257 + h)`, entry (b, 1, h) is `x (b, 1 + h)`;
  * the right operand [16, 2, 256] stacks the slices of columns T-257 … T-2 and T-513 … T-258 (T = 1048576):
    entry (b, 0, h) is `x (b, 1048319 + h)`, entry (b, 1, h) is `x (b, 1048063 + h)`.

  Together: entry (b, j, h) of the padded chunk list [left | main | right] is `Cert.Energy.chunk (row x b) j h`.
-/
import proofs.«111157_j30889404793022_2_alg».proof.Proof.Gen.KernelIdeal.Frame
import proofs.«111157_j30889404793022_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One slice of 256 columns, stacked as a unit row, at an index -/

/-- A 256-column slice of the signal starting at column `off`, given a unit middle axis, read at (b, 0, h),
    is the signal at (b, off + h). -/
theorem sliceRow_apply (x : S16x1048576.Idx → EReal) (off : ℕ) (hs : S16x1048576.Slices ![0, off] S16x256)
    (b : Fin 16) (h : Fin 256) (hb : off + h.val < 1048576) :
    broadcastInDim S16x1x256 ![0, 2] bcast_S16x256_S16x1x256_0_2 (extractStridedSlice S16x256 ![0, off] x hs) (ix3 b (0 : Fin 1) h)
      = x (ix2 b ⟨off + h.val, hb⟩) := by
  refine (broadcastInDim_apply (![0, 2] : Fin 2 → Fin 3) bcast_S16x256_S16x1x256_0_2 _ (ix3 b (0 : Fin 1) h) (ix2 b h) ?_).trans ?_
  · intro a
    match a with
    | ⟨0, _⟩ => exact (if_neg (show ¬ ((16 : ℕ) = 1) by omega)).symm
    | ⟨1, _⟩ => exact (if_neg (show ¬ ((256 : ℕ) = 1) by omega)).symm
  · refine extractStridedSlice_apply (![0, off] : Fin 2 → Nat) x hs (ix2 b h) (ix2 b ⟨off + h.val, hb⟩) ?_
    intro a
    match a with
    | ⟨0, _⟩ => exact (Nat.zero_add _).symm
    | ⟨1, _⟩ => rfl

/-- Two such unit rows stacked along the middle axis: row 0 is the first. -/
theorem stack_apply0 (p q : S16x1x256.Idx → EReal) (b : Fin 16) (h : Fin 256) :
    concatenate S16x2x256 1 [⟨S16x1x256, p⟩, ⟨S16x1x256, q⟩] concatenates_S16x1x256_S16x1x256_S16x2x256_d1 (ix3 b (0 : Fin 2) h)
      = p (ix3 b (0 : Fin 1) h) := by
  refine concatenate_pair_apply_left (1 : Fin 3) p q concatenates_S16x1x256_S16x1x256_S16x2x256_d1 (ix3 b (0 : Fin 2) h) rfl
    (ix3 b (0 : Fin 1) h) ?_
  intro a
  match a with
  | ⟨0, _⟩ => rfl
  | ⟨1, _⟩ => rfl
  | ⟨2, _⟩ => rfl

/-- Row 1 is the second. -/
theorem stack_apply1 (p q : S16x1x256.Idx → EReal) (b : Fin 16) (h : Fin 256) :
    concatenate S16x2x256 1 [⟨S16x1x256, p⟩, ⟨S16x1x256, q⟩] concatenates_S16x1x256_S16x1x256_S16x2x256_d1 (ix3 b (1 : Fin 2) h)
      = q (ix3 b (0 : Fin 1) h) := by
  refine concatenate_pair_apply_right (1 : Fin 3) p q concatenates_S16x1x256_S16x1x256_S16x2x256_d1 (ix3 b (1 : Fin 2) h) rfl rfl
    (ix3 b (0 : Fin 1) h) ?_ rfl
  intro a ha
  match a with
  | ⟨0, _⟩ => rfl
  | ⟨1, _⟩ => exact absurd rfl ha
  | ⟨2, _⟩ => rfl

/-- The signal re-laid as [16, 4096, 256], at (b, j, h), is the signal at (b, 256 j + h). -/
theorem relaid_apply (x : S16x1048576.Idx → EReal) (b : Fin 16) (j : Fin 4096) (h : Fin 256) (hb : 256 * j.val + h.val < 1048576) :
    shapeCast S16x4096x256 x shapeCasts_S16x1048576_S16x4096x256 (ix3 b j h) = x (ix2 b ⟨256 * j.val + h.val, hb⟩) := by
  refine shapeCast_apply x shapeCasts_S16x1048576_S16x4096x256 (ix3 b j h) (ix2 b ⟨256 * j.val + h.val, hb⟩) ?_
  rw [Shape.rowMajor_val_two, Shape.rowMajor_val_three]
  show b.val * 1048576 + (256 * j.val + h.val) = (b.val * 4096 + j.val) * 256 + h.val
  omega

/-! ## The three arrays as the region finds them -/

/-- The main operand at region entry is the argument re-laid. -/
theorem V_main (c : Dev nD) : (V m c main_v0 : S16x4096x256.Idx → EReal)
    = shapeCast S16x4096x256 (m ((c : Thread nD τ).loc main_arg0)) shapeCasts_S16x1048576_S16x4096x256 := by
  show StableHlo.after hostOps0 (fun b => m (c, b)) (Proc.devRef .tc main_v0) = _
  after_results
  rfl

/-- The left operand at region entry: the two stacked slices. -/
theorem V_left (c : Dev nD) : (V m c main_v5 : S16x2x256.Idx → EReal)
    = concatenate S16x2x256 1 [⟨S16x1x256, broadcastInDim S16x1x256 ![0, 2] bcast_S16x256_S16x1x256_0_2 (extractStridedSlice S16x256 ![0, 257] (m ((c : Thread nD τ).loc main_arg0)) slices_S16x1048576_S16x256_0_257)⟩,
        ⟨S16x1x256, broadcastInDim S16x1x256 ![0, 2] bcast_S16x256_S16x1x256_0_2 (extractStridedSlice S16x256 ![0, 1] (m ((c : Thread nD τ).loc main_arg0)) slices_S16x1048576_S16x256_0_1)⟩] concatenates_S16x1x256_S16x1x256_S16x2x256_d1 := by
  show StableHlo.after hostOps0 (fun b => m (c, b)) (Proc.devRef .tc main_v5) = _
  after_results

/-- The right operand at region entry: the two stacked slices. -/
theorem V_right (c : Dev nD) : (V m c main_v10 : S16x2x256.Idx → EReal)
    = concatenate S16x2x256 1 [⟨S16x1x256, broadcastInDim S16x1x256 ![0, 2] bcast_S16x256_S16x1x256_0_2 (extractStridedSlice S16x256 ![0, 1048319] (m ((c : Thread nD τ).loc main_arg0)) slices_S16x1048576_S16x256_0_1048319)⟩,
        ⟨S16x1x256, broadcastInDim S16x1x256 ![0, 2] bcast_S16x256_S16x1x256_0_2 (extractStridedSlice S16x256 ![0, 1048063] (m ((c : Thread nD τ).loc main_arg0)) slices_S16x1048576_S16x256_0_1048063)⟩] concatenates_S16x1x256_S16x1x256_S16x2x256_d1 := by
  show StableHlo.after hostOps0 (fun b => m (c, b)) (Proc.devRef .tc main_v10) = _
  after_results

/-! ## … read at an index, as padded chunks of a row -/

open Cert.Energy in
/-- A row of the argument at a position inside it. -/
theorem row_of_lt (x : S16x1048576.Idx → EReal) (b : Fin 16) (i : ℕ) (hi : i < 1048576) :
    Cert.Energy.row x b i = x (ix2 b ⟨i, hi⟩) := dif_pos hi

/-- An index below 2 is 0 or 1. -/
theorem fin2_cases (j : Fin 2) : j = 0 ∨ j = 1 := by
  rcases j with ⟨_ | _ | n, hn⟩
  · exact Or.inl rfl
  · exact Or.inr rfl
  · omega

/-- Entry (b, j, h) of the main operand is entry h of padded chunk j + 2 of row b. -/
theorem main_apply (c : Dev nD) (b : Fin 16) (j : Fin 4096) (h : Fin 256) :
    (V m c main_v0 : S16x4096x256.Idx → EReal) (ix3 b j h)
      = Cert.Energy.chunk (Cert.Energy.row (m ((c : Thread nD τ).loc main_arg0)) b) (j.val + 2) h.val := by
  have hj : j.val < 4096 := j.isLt
  have hh : h.val < 256 := h.isLt
  have hb : 256 * j.val + h.val < 1048576 := by omega
  rw [V_main, relaid_apply _ b j h hb]
  unfold Cert.Energy.chunk
  rw [if_neg (by omega), if_neg (by omega), if_pos (by omega), row_of_lt _ b _ (by omega)]
  exact congrArg _ (congrArg (ix2 b) (Fin.ext (by show 256 * j.val + h.val = (j.val + 2 - 2) * 256 + h.val; omega)))

/-- Entry (b, j, h) of the left operand is entry h of padded chunk j of row b. -/
theorem left_apply (c : Dev nD) (b : Fin 16) (j : Fin 2) (h : Fin 256) :
    (V m c main_v5 : S16x2x256.Idx → EReal) (ix3 b j h)
      = Cert.Energy.chunk (Cert.Energy.row (m ((c : Thread nD τ).loc main_arg0)) b) j.val h.val := by
  have hh : h.val < 256 := h.isLt
  rw [V_left]
  unfold Cert.Energy.chunk
  obtain rfl | rfl := fin2_cases j
  · rw [if_pos (by decide), row_of_lt _ b _ (by omega)]
    exact (stack_apply0 _ _ b h).trans (sliceRow_apply _ 257 _ b h (by omega))
  · rw [if_neg (by decide), if_pos (by decide), row_of_lt _ b _ (by omega)]
    exact (stack_apply1 _ _ b h).trans (sliceRow_apply _ 1 _ b h (by omega))

/-- Entry (b, j, h) of the right operand is entry h of padded chunk 4098 + j of row b. -/
theorem right_apply (c : Dev nD) (b : Fin 16) (j : Fin 2) (h : Fin 256) :
    (V m c main_v10 : S16x2x256.Idx → EReal) (ix3 b j h)
      = Cert.Energy.chunk (Cert.Energy.row (m ((c : Thread nD τ).loc main_arg0)) b) (4098 + j.val) h.val := by
  have hh : h.val < 256 := h.isLt
  rw [V_right]
  unfold Cert.Energy.chunk
  obtain rfl | rfl := fin2_cases j
  · rw [if_neg (by decide), if_neg (by decide), if_neg (by decide), if_pos (by decide), row_of_lt _ b _ (by omega)]
    exact (stack_apply0 _ _ b h).trans (sliceRow_apply _ 1048319 _ b h (by omega))
  · rw [if_neg (by decide), if_neg (by decide), if_neg (by decide), if_neg (by decide), row_of_lt _ b _ (by omega)]
    exact (stack_apply1 _ _ b h).trans (sliceRow_apply _ 1048063 _ b h (by omega))

end Cert.KernelIdeal.KerValue

end
-- ==== Proof.KerBlocks.lean ====
/-
  The kernel's blocks: at grid point `t` each window stages row `t` of its array whole, so an entry of a
  staged block is the same entry of row `t` of the array, and the output block's entries land in row `t`
  of the output array.
-/
import proofs.«111157_j30889404793022_2_alg».proof.Proof.Gen.KernelIdeal.Frame
import proofs.«111157_j30889404793022_2_alg».proof.Proof.Spec
import Idealize.ShloMosaic.Lib.Pipeline.Value
import Idealize.ShloMosaic.Lib.ValueIdx
import Idealize.ShloMosaic.Lib.ValueLayout

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The printed index maps over the grid -/

/-- At grid point `t` every window's block index is `(t, 0, 0)`: each point stages row `t` of each array whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The input blocks at a point, entry by entry -/

/-- Entry (0, j, h) of the main operand's block at point `t` is entry (t, j, h) of the array. -/
theorem blk_main (c : Dev nD) (t : Fin cfg0.N) (b : Fin 16) (hb : b.val = t.val) (j : Fin 4096) (h : Fin 256) :
    iblk m c 0 t (ix3 (0 : Fin 1) j h) = (V m c main_v0 : S16x4096x256.Idx → EReal) (ix3 b j h) := by
  obtain ⟨e0, e1, e2, -⟩ := idx_facts t
  show (V m c main_v0 : S16x4096x256.Idx → EReal) (((cfg0.win 0).blk t).view.emb (ix3 (0 : Fin 1) j h)) = _
  refine congrArg _ (funext fun a => Fin.ext ?_)
  match a with
  | ⟨0, _⟩ => show win0_0.index t (0 : Fin 3) * 1 + 1 * 0 = b.val; omega
  | ⟨1, _⟩ => show win0_0.index t (1 : Fin 3) * 4096 + 1 * j.val = j.val; omega
  | ⟨2, _⟩ => show win0_0.index t (2 : Fin 3) * 256 + 1 * h.val = h.val; omega

/-- Entry (0, j, h) of the left operand's block at point `t` is entry (t, j, h) of the array. -/
theorem blk_left (c : Dev nD) (t : Fin cfg0.N) (b : Fin 16) (hb : b.val = t.val) (j : Fin 2) (h : Fin 256) :
    iblk m c 1 t (ix3 (0 : Fin 1) j h) = (V m c main_v5 : S16x2x256.Idx → EReal) (ix3 b j h) := by
  obtain ⟨-, -, -, e0, e1, e2, -⟩ := idx_facts t
  show (V m c main_v5 : S16x2x256.Idx → EReal) (((cfg0.win 1).blk t).view.emb (ix3 (0 : Fin 1) j h)) = _
  refine congrArg _ (funext fun a => Fin.ext ?_)
  match a with
  | ⟨0, _⟩ => show win0_1.index t (0 : Fin 3) * 1 + 1 * 0 = b.val; omega
  | ⟨1, _⟩ => show win0_1.index t (1 : Fin 3) * 2 + 1 * j.val = j.val; omega
  | ⟨2, _⟩ => show win0_1.index t (2 : Fin 3) * 256 + 1 * h.val = h.val; omega

/-- Entry (0, j, h) of the right operand's block at point `t` is entry (t, j, h) of the array. -/
theorem blk_right (c : Dev nD) (t : Fin cfg0.N) (b : Fin 16) (hb : b.val = t.val) (j : Fin 2) (h : Fin 256) :
    iblk m c 2 t (ix3 (0 : Fin 1) j h) = (V m c main_v10 : S16x2x256.Idx → EReal) (ix3 b j h) := by
  obtain ⟨-, -, -, -, -, -, e0, e1, e2, -⟩ := idx_facts t
  show (V m c main_v10 : S16x2x256.Idx → EReal) (((cfg0.win 2).blk t).view.emb (ix3 (0 : Fin 1) j h)) = _
  refine congrArg _ (funext fun a => Fin.ext ?_)
  match a with
  | ⟨0, _⟩ => show win0_2.index t (0 : Fin 3) * 1 + 1 * 0 = b.val; omega
  | ⟨1, _⟩ => show win0_2.index t (1 : Fin 3) * 2 + 1 * j.val = j.val; omega
  | ⟨2, _⟩ => show win0_2.index t (2 : Fin 3) * 256 + 1 * h.val = h.val; omega

/-- Entry (0, r, l) of the output's block at point `t` sits at (t, r, l) of the output array. -/
theorem emb_out (t : Fin cfg0.N) (b : Fin 16) (hb : b.val = t.val) (r : Fin 32) (l : Fin 128) :
    ((cfg0.win 3).blk t).view.emb (ix3 (0 : Fin 1) r l) = (ix3 b r l : S16x32x128.Idx) := by
  obtain ⟨-, -, -, -, -, -, -, -, -, e0, e1, e2⟩ := idx_facts t
  refine funext fun a => Fin.ext ?_
  match a with
  | ⟨0, _⟩ => show win0_3.index t (0 : Fin 3) * 1 + 1 * 0 = b.val; omega
  | ⟨1, _⟩ => show win0_3.index t (1 : Fin 3) * 32 + 1 * r.val = r.val; omega
  | ⟨2, _⟩ => show win0_3.index t (2 : Fin 3) * 128 + 1 * l.val = l.val; omega

end Cert.KernelIdeal.KerValue

end
-- ==== Proof.KerPayload.lean ====
/-
  The kernel body's stored value, read at an index.

  The body forms, per 256-wide chunk row, the 128-lane partial sum of squares (lane `l` squared plus lane
  `128 + l` squared), lays the 4100 chunk rows end to end (two left pad rows, the 4096 rows of the block,
  two right pad rows), adds four row-shifted windows of that array, sums the 128 lanes, scales by 2⁻¹⁰,
  takes the square root, and re-lays the [4096, 1] column as [32, 128] and then [1, 32, 128]. Read at
  `(0, r, l)` the result is frame `f = 128 r + l`: the root of the scaled lane sum of the partial sums of
  rows `f, f + 1, f + 2, f + 3`.
-/
import proofs.«111157_j30889404793022_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.Payload

open Idealize.ShloMosaic Idealize.ShloMosaic.ValueIdx Cert.KernelIdeal

/-- Lane `l` of row `j`'s partial sum of squares, over the rows' entries `c j h`. -/
def pp (c : ℕ → ℕ → EReal) (j l : ℕ) : EReal := c j l * c j l + c j (128 + l) * c j (128 + l)

/-- The partial sum of squares of an [n, 256] array whose rows are a [1, n, 256] block's: entry `(i, k)` is the
    block's `(0, i, k)` squared plus its `(0, i, 128 + k)` squared. -/
theorem psq_apply {n : ℕ} (x : Vec Ideal ⟨3, ![1, n, 256]⟩ .f32)
    (hc : (⟨3, ![1, n, 256]⟩ : Shape).ShapeCasts ⟨2, ![n, 256]⟩)
    (hs0 : (⟨2, ![n, 256]⟩ : Shape).Slices ![0, 0] ⟨2, ![n, 128]⟩)
    (hs1 : (⟨2, ![n, 256]⟩ : Shape).Slices ![0, 128] ⟨2, ![n, 128]⟩)
    (c : ℕ → ℕ → EReal) (hx : ∀ (j : Fin n) (h : Fin 256), x (ix3 (0 : Fin 1) j h) = c j.val h.val)
    (i : Fin n) (k : Fin 128) :
    addf (F := Ideal) (φ := .f32)
        (mulf (F := Ideal) (φ := .f32) (extractStridedSlice ⟨2, ![n, 128]⟩ ![0, 0] (shapeCast ⟨2, ![n, 256]⟩ x hc) hs0)
          (extractStridedSlice ⟨2, ![n, 128]⟩ ![0, 0] (shapeCast ⟨2, ![n, 256]⟩ x hc) hs0))
        (mulf (F := Ideal) (φ := .f32) (extractStridedSlice ⟨2, ![n, 128]⟩ ![0, 128] (shapeCast ⟨2, ![n, 256]⟩ x hc) hs1)
          (extractStridedSlice ⟨2, ![n, 128]⟩ ![0, 128] (shapeCast ⟨2, ![n, 256]⟩ x hc) hs1)) (ix2 i k)
      = pp c i.val k.val := by
  have e0 : extractStridedSlice ⟨2, ![n, 128]⟩ ![0, 0] (shapeCast ⟨2, ![n, 256]⟩ x hc) hs0 (ix2 i k) = c i.val k.val :=
    (slice2_axis1_apply 0 _ hs0 i k ⟨k.val, by omega⟩ (Nat.zero_add _).symm).trans
      ((shapeCast_1ab_ab_apply x hc i _).trans (hx i _))
  have e1 : extractStridedSlice ⟨2, ![n, 128]⟩ ![0, 128] (shapeCast ⟨2, ![n, 256]⟩ x hc) hs1 (ix2 i k)
      = c i.val (128 + k.val) :=
    (slice2_axis1_apply 128 _ hs1 i k ⟨128 + k.val, by omega⟩ rfl).trans
      ((shapeCast_1ab_ab_apply x hc i _).trans (hx i _))
  refine (addf_apply _ _ _).trans ?_
  refine congrArg₂ (· + ·) ((mulf_apply _ _ _).trans (congrArg₂ (· * ·) e0 e0))
    ((mulf_apply _ _ _).trans (congrArg₂ (· * ·) e1 e1))

/-- Row `j` of the three pieces laid end to end along the rows: two rows, then 4096, then two. -/
theorem cat_row (A C : FVec Ideal ⟨2, ![2, 128]⟩ .f32) (B : FVec Ideal ⟨2, ![4096, 128]⟩ .f32)
    (h : Shape.Concatenates [(⟨2, ![2, 128]⟩ : Shape), ⟨2, ![4096, 128]⟩, ⟨2, ![2, 128]⟩] ⟨2, ![4100, 128]⟩ 0)
    (c : ℕ → ℕ → EReal)
    (hA : ∀ (i : Fin 2) (k : Fin 128), A (ix2 i k) = pp c i.val k.val)
    (hB : ∀ (i : Fin 4096) (k : Fin 128), B (ix2 i k) = pp c (i.val + 2) k.val)
    (hC : ∀ (i : Fin 2) (k : Fin 128), C (ix2 i k) = pp c (4098 + i.val) k.val)
    (j : ℕ) (J : Fin 4100) (hJ : J.val = j) (k : Fin 128) :
    concatenate (⟨2, ![4100, 128]⟩ : Shape) 0
        [⟨(⟨2, ![2, 128]⟩ : Shape), A⟩, ⟨(⟨2, ![4096, 128]⟩ : Shape), B⟩, ⟨(⟨2, ![2, 128]⟩ : Shape), C⟩] h (ix2 J k)
      = pp c j k.val := by
  have hJ4 : J.val < 4100 := J.isLt
  by_cases h1 : j < 2
  · refine (concatenate_apply_piece (t := ⟨2, ![4100, 128]⟩) (0 : Fin 2)
        [⟨(⟨2, ![2, 128]⟩ : Shape), A⟩, ⟨(⟨2, ![4096, 128]⟩ : Shape), B⟩, ⟨(⟨2, ![2, 128]⟩ : Shape), C⟩] h (ix2 J k) 0
        (show 0 < 3 by omega) _ A rfl rfl 0 rfl
      (ix2 (⟨j, h1⟩ : Fin 2) k) ?_ ?_).trans ((hA _ _).trans rfl)
    · intro b hb
      match b, hb with
      | ⟨0, _⟩, hb => exact absurd rfl hb
      | ⟨1, _⟩, _ => rfl
    · show 0 + j = J.val
      omega
  · by_cases h2 : j < 4098
    · refine (concatenate_apply_piece (t := ⟨2, ![4100, 128]⟩) (0 : Fin 2)
        [⟨(⟨2, ![2, 128]⟩ : Shape), A⟩, ⟨(⟨2, ![4096, 128]⟩ : Shape), B⟩, ⟨(⟨2, ![2, 128]⟩ : Shape), C⟩] h (ix2 J k) 1
        (show 1 < 3 by omega) _ B rfl rfl 2 rfl
        (ix2 (⟨j - 2, by omega⟩ : Fin 4096) k) ?_ ?_).trans ((hB _ _).trans ?_)
      · intro b hb
        match b, hb with
        | ⟨0, _⟩, hb => exact absurd rfl hb
        | ⟨1, _⟩, _ => rfl
      · show 2 + (j - 2) = J.val
        omega
      · show pp c (j - 2 + 2) k.val = pp c j k.val
        rw [show j - 2 + 2 = j by omega]
    · refine (concatenate_apply_piece (t := ⟨2, ![4100, 128]⟩) (0 : Fin 2)
        [⟨(⟨2, ![2, 128]⟩ : Shape), A⟩, ⟨(⟨2, ![4096, 128]⟩ : Shape), B⟩, ⟨(⟨2, ![2, 128]⟩ : Shape), C⟩] h (ix2 J k) 2
        (show 2 < 3 by omega) _ C rfl rfl 4098 rfl
        (ix2 (⟨j - 4098, by omega⟩ : Fin 2) k) ?_ ?_).trans ((hC _ _).trans ?_)
      · intro b hb
        match b, hb with
        | ⟨0, _⟩, hb => exact absurd rfl hb
        | ⟨1, _⟩, _ => rfl
      · show 4098 + (j - 4098) = J.val
        omega
      · show pp c (4098 + (j - 4098)) k.val = pp c j k.val
        rw [show 4098 + (j - 4098) = j by omega]

/-- A window of 4096 rows of that array from row `t` on: its row `f` is row `t + f` of the array. -/
theorem win_row (A C : FVec Ideal ⟨2, ![2, 128]⟩ .f32) (B : FVec Ideal ⟨2, ![4096, 128]⟩ .f32)
    (h : Shape.Concatenates [(⟨2, ![2, 128]⟩ : Shape), ⟨2, ![4096, 128]⟩, ⟨2, ![2, 128]⟩] ⟨2, ![4100, 128]⟩ 0)
    (c : ℕ → ℕ → EReal)
    (hA : ∀ (i : Fin 2) (k : Fin 128), A (ix2 i k) = pp c i.val k.val)
    (hB : ∀ (i : Fin 4096) (k : Fin 128), B (ix2 i k) = pp c (i.val + 2) k.val)
    (hC : ∀ (i : Fin 2) (k : Fin 128), C (ix2 i k) = pp c (4098 + i.val) k.val)
    (t : ℕ) (hs : (⟨2, ![4100, 128]⟩ : Shape).Slices ![t, 0] ⟨2, ![4096, 128]⟩)
    (f : Fin 4096) (j : ℕ) (hj : t + f.val = j) (ht : t + f.val < 4100) (k : Fin 128) :
    extractStridedSlice (⟨2, ![4096, 128]⟩ : Shape) ![t, 0]
        (concatenate (⟨2, ![4100, 128]⟩ : Shape) 0
          [⟨(⟨2, ![2, 128]⟩ : Shape), A⟩, ⟨(⟨2, ![4096, 128]⟩ : Shape), B⟩, ⟨(⟨2, ![2, 128]⟩ : Shape), C⟩] h)
        hs (ix2 f k)
      = pp c j k.val :=
  (slice2_axis0_apply t _ hs f k ⟨t + f.val, ht⟩ rfl).trans (cat_row A C B h c hA hB hC j _ hj k)

/-- The lane sum: the reduction of a [4096, 128] array over its lanes, at row `f`, is the sum over the 128 lanes. -/
theorem lanesum_apply (src : FVec Ideal ⟨2, ![4096, 128]⟩ .f32)
    (h : (⟨2, ![4096, 128]⟩ : Shape).Reduces [1] ⟨1, ![4096]⟩) (hφ : FKind.Formats .f32)
    (hacc : (0x00000000#32 : BitVec 32) = FKind.add.neutral .f32 hφ) (f : Fin 4096) :
    multiReduction (F := Ideal) .add [1] ⟨1, ![4096]⟩ src 0x00000000#32 h hφ hacc (ix1 f)
      = ∑ k : Fin 128, src (ix2 f k) := by
  refine (Ideal.multiReduction_add_single src _ h hφ hacc (ix1 f)).trans ?_
  refine Finset.sum_congr rfl (fun k _ => congrArg src ?_)
  funext a
  match a with
  | ⟨0, _⟩ => rfl
  | ⟨1, _⟩ => rfl

/-- The square root of a vector, at an index. -/
theorem sqrt_apply {s : Shape} {φ : FTy} (v : FVec Ideal s φ) (i : s.Idx) : sqrt v i = Ideal.sqrt (v i) := rfl

/-- A splat of the scalar a word encodes reads that scalar at every index. -/
theorem splat_apply (s : Shape) (b : BitVec FTy.f32.bits) (i : s.Idx) :
    broadcast s (Scalar.ofBits (F := Ideal) .f32 b) i = Ideal.ofBits .f32 b := rfl

/-- A [4096] vector cast to a [4096, 1] column reads, at `(f, 0)`, the vector at `f`. -/
theorem col_apply (v : FVec Ideal ⟨1, ![4096]⟩ .f32) (h : (⟨1, ![4096]⟩ : Shape).ShapeCasts ⟨2, ![4096, 1]⟩)
    (f : Fin 4096) (u : Fin 1) : shapeCast ⟨2, ![4096, 1]⟩ v h (ix2 f u) = v (ix1 f) :=
  shapeCast_apply v h _ _ (by
    have hu : u.val = 0 := by omega
    rw [Shape.rowMajor_val_two, Shape.rowMajor_val_one]
    show f.val = f.val * 1 + u.val
    omega)

/-- A [4096, 1] column cast to a [32, 128] tile reads, at `(r, l)`, the column at row `128 r + l`. -/
theorem tile_apply (v : FVec Ideal ⟨2, ![4096, 1]⟩ .f32) (h : (⟨2, ![4096, 1]⟩ : Shape).ShapeCasts ⟨2, ![32, 128]⟩)
    (r : Fin 32) (l : Fin 128) (f : Fin 4096) (hf : f.val = 128 * r.val + l.val) :
    shapeCast ⟨2, ![32, 128]⟩ v h (ix2 r l) = v (ix2 f (0 : Fin 1)) :=
  shapeCast_apply v h _ _ (by
    rw [Shape.rowMajor_val_two, Shape.rowMajor_val_two]
    show f.val * 1 + 0 = r.val * 128 + l.val
    omega)

/-- **The stored value at `(0, r, l)`**: with the three operands' entries named by one function `c` of the padded
    chunk row and the position in it (rows 0, 1 the left pad, 2 … 4097 the block, 4098, 4099 the right pad), it is
    frame `128 r + l`: the root of 2⁻¹⁰ times the lane sum of four consecutive rows' partial sums of squares. -/
theorem pay_apply (x0 : Vec Ideal S1x4096x256 .f32) (x1 x2 : Vec Ideal S1x2x256 .f32) (c : ℕ → ℕ → EReal)
    (h0 : ∀ (j : Fin 4096) (h : Fin 256), x0 (ix3 (0 : Fin 1) j h) = c (j.val + 2) h.val)
    (h1 : ∀ (j : Fin 2) (h : Fin 256), x1 (ix3 (0 : Fin 1) j h) = c j.val h.val)
    (h2 : ∀ (j : Fin 2) (h : Fin 256), x2 (ix3 (0 : Fin 1) j h) = c (4098 + j.val) h.val)
    (r : Fin 32) (l : Fin 128) :
    Cert.KernelIdeal.Gen.k0_pay1 (F := Ideal) x0 x1 x2 (ix3 (0 : Fin 1) r l)
      = Ideal.sqrt ((∑ l' : Fin 128, (((pp c (128 * r.val + l.val) l'.val + pp c (128 * r.val + l.val + 1) l'.val) + pp c (128 * r.val + l.val + 2) l'.val) + pp c (128 * r.val + l.val + 3) l'.val))
          * Ideal.ofBits .f32 0x3A800000#32) := by
  have hf : 128 * r.val + l.val < 4096 := by omega
  unfold Cert.KernelIdeal.Gen.k0_pay1
  refine (shapeCast_ab_1ab_apply _ _ (0 : Fin 1) r l).trans ?_
  refine (tile_apply _ _ r l ⟨128 * r.val + l.val, hf⟩ rfl).trans ?_
  refine (sqrt_apply _ _).trans (congrArg Ideal.sqrt ?_)
  refine (mulf_apply _ _ _).trans (congrArg₂ (· * ·) ?_ (splat_apply _ _ _))
  refine (col_apply _ _ _ _).trans ?_
  refine (lanesum_apply _ _ _ _ _).trans ?_
  refine Finset.sum_congr rfl (fun k _ => ?_)
  have hA := fun (i : Fin 2) (k : Fin 128) =>
    psq_apply x1 Gen.shapeCasts_S1x2x256_S2x256 Gen.slices_S2x256_o0_0_S2x128 Gen.slices_S2x256_o0_128_S2x128 c h1 i k
  have hB := fun (i : Fin 4096) (k : Fin 128) =>
    psq_apply x0 Gen.shapeCasts_S1x4096x256_S4096x256 Gen.slices_S4096x256_o0_0_S4096x128
      Gen.slices_S4096x256_o0_128_S4096x128 (fun j h => c (j + 2) h) h0 i k
  have hC := fun (i : Fin 2) (k : Fin 128) =>
    psq_apply x2 Gen.shapeCasts_S1x2x256_S2x256 Gen.slices_S2x256_o0_0_S2x128 Gen.slices_S2x256_o0_128_S2x128
      (fun j h => c (4098 + j) h) h2 i k
  refine (addf_apply _ _ _).trans (congrArg₂ (· + ·) ((addf_apply _ _ _).trans (congrArg₂ (· + ·)
    ((addf_apply _ _ _).trans (congrArg₂ (· + ·) ?_ ?_)) ?_)) ?_)
  · exact win_row _ _ _ _ c hA hB hC 0 _ ⟨128 * r.val + l.val, hf⟩ _
      (show 0 + (128 * r.val + l.val) = 128 * r.val + l.val by omega)
      (show 0 + (128 * r.val + l.val) < 4100 by omega) k
  · exact win_row _ _ _ _ c hA hB hC 1 _ ⟨128 * r.val + l.val, hf⟩ _
      (show 1 + (128 * r.val + l.val) = 128 * r.val + l.val + 1 by omega)
      (show 1 + (128 * r.val + l.val) < 4100 by omega) k
  · exact win_row _ _ _ _ c hA hB hC 2 _ ⟨128 * r.val + l.val, hf⟩ _
      (show 2 + (128 * r.val + l.val) = 128 * r.val + l.val + 2 by omega)
      (show 2 + (128 * r.val + l.val) < 4100 by omega) k
  · exact win_row _ _ _ _ c hA hB hC 3 _ ⟨128 * r.val + l.val, hf⟩ _
      (show 3 + (128 * r.val + l.val) = 128 * r.val + l.val + 3 by omega)
      (show 3 + (128 * r.val + l.val) < 4100 by omega) k

end Cert.KernelIdeal.Payload

end
-- ==== Proof.KerRun.lean ====
/-
  The kernel's run, read: the result buffer [16, 4096, 1] ends at `Cert.Energy.outKer` of the argument.

  At grid point `t` the body stores, at (0, r, l) of its [1, 32, 128] block, the energy of frame 128 r + l computed from
  the padded chunks held in the three staged blocks; those blocks are row `t` of the three operands, which hold row `t`
  of the signal's padded chunks (left pair, the 4096 chunks of the row, right pair). The 16 blocks tile the output array
  [16, 32, 128], so it ends at `tiles`: entry (b, r, l) the energy of frame 128 r + l of row b; the last host
  operation re-lays it row-major as [16, 4096, 1], whose entry (b, f, 0) is entry (b, f / 128, f % 128).
-/
import proofs.«111157_j30889404793022_2_alg».proof.Proof.Gen.KernelIdeal.Frame
import proofs.«111157_j30889404793022_2_alg».proof.Proof.Spec
import proofs.«111157_j30889404793022_2_alg».proof.Proof.KerHost
import proofs.«111157_j30889404793022_2_alg».proof.Proof.KerBlocks
import proofs.«111157_j30889404793022_2_alg».proof.Proof.KerPayload
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The output array as one function of the argument -/

/-- The kernel's output array [16, 32, 128]: entry (b, r, l) is the energy of frame 128 r + l of row b. -/
def tiles (x : S16x1048576.Idx → EReal) : S16x32x128.Idx → EReal :=
  fun i => Cert.Energy.kerE (Cert.Energy.row x (i 0)) (128 * (i 1).val + (i 2).val)

theorem hz3 : (![0, 0, 0] : Fin 3 → Nat) = fun _ => 0 := funext fun a => by fin_cases a <;> rfl

/-- What point `t` writes back is block `t` of `tiles` of the argument: the body's stored value at (0, r, l) is the
    energy of frame 128 r + l over the padded chunks the three staged blocks hold, and those are row `t`'s. -/
theorem flushed_eq (c : Dev nD) (t : Fin cfg0.N) :
    (dats m 0 c).flushed 3 t = ((cfg0.win 3).blk t).view.read (Elt Ideal) (tiles (m ((c : Thread nD τ).loc main_arg0))) := by
  show (cfg0.win 3).cut (grid0.coords t) ((dats m 0 c).after 3 t) = _
  rw [after0_3]
  unfold out0_3
  rw [View.canon_unit_zero hz3]
  simp only [View.ld_unit_zero (S := S1x4096x256) hz3, View.ld_unit_zero (S := S1x2x256) hz3]
  have ht : t.val < 16 := lt_of_lt_of_eq t.isLt N_0
  funext y
  obtain ⟨z, r, l, rfl⟩ : ∃ (z : Fin 1) (r : Fin 32) (l : Fin 128), y = ix3 z r l := ⟨y 0, y 1, y 2, eq_ix3 y⟩
  obtain rfl : z = 0 := Subsingleton.elim _ _
  show k0_pay1 (F := Ideal) (iblk m c 0 t) (iblk m c 1 t) (iblk m c 2 t) (ix3 (0 : Fin 1) r l)
    = tiles (m ((c : Thread nD τ).loc main_arg0)) (((cfg0.win 3).blk t).view.emb (ix3 (0 : Fin 1) r l))
  rw [emb_out t ⟨t.val, ht⟩ rfl r l]
  exact Cert.KernelIdeal.Payload.pay_apply (iblk m c 0 t) (iblk m c 1 t) (iblk m c 2 t)
    (Cert.Energy.chunk (Cert.Energy.row (m ((c : Thread nD τ).loc main_arg0)) ⟨t.val, ht⟩))
    (fun j h => (blk_main m c t ⟨t.val, ht⟩ rfl j h).trans (main_apply m c ⟨t.val, ht⟩ j h))
    (fun j h => (blk_left m c t ⟨t.val, ht⟩ rfl j h).trans (left_apply m c ⟨t.val, ht⟩ j h))
    (fun j h => (blk_right m c t ⟨t.val, ht⟩ rfl j h).trans (right_apply m c ⟨t.val, ht⟩ j h))
    r l

/-- An index of the output array is in point `t`'s block iff each coordinate is in the block's range on its axis. -/
theorem mem_blk (t : Fin cfg0.N) (i : S16x32x128.Idx) :
    i ∈ ((cfg0.win 3).blk t).view.set ↔ ∀ a : Fin 3, win0_3.index t a * S1x32x128.size a ≤ (i a).val ∧ (i a).val < win0_3.index t a * S1x32x128.size a + S1x32x128.size a := by
  show i ∈ ((View.whole main_v11).slice (win0_3.rect t)).set ↔ _
  rw [View.set_slice_whole, Rect.mem_set_unit]
  exact Iff.rfl

/-- Every entry of the output array is in the block of the point of its row. -/
theorem cover (i : S16x32x128.Idx) : ∃ t : Fin cfg0.N, (cfg0.win 3).flush t = true ∧ i ∈ ((cfg0.win 3).blk t).view.set := by
  have hi0 : (i 0).val < 16 := (i 0).isLt
  have hi1 : (i 1).val < 32 := (i 1).isLt
  have hi2 : (i 2).val < 128 := (i 2).isLt
  have hN : cfg0.N = 16 := N_0
  refine ⟨⟨(i 0).val, by rw [hN]; exact hi0⟩, flush0_3 _, ?_⟩
  rw [mem_blk]
  obtain ⟨-, -, -, -, -, -, -, -, -, e0, e1, e2⟩ := idx_facts ⟨(i 0).val, by rw [hN]; exact hi0⟩
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 32 ≤ (i 1).val ∧ (i 1).val < win0_3.index _ (1 : Fin 3) * 32 + 32; rw [e1]; omega
  | ⟨2, _⟩ => show win0_3.index _ (2 : Fin 3) * 128 ≤ (i 2).val ∧ (i 2).val < win0_3.index _ (2 : Fin 3) * 128 + 128; rw [e2]; omega

/-- The output array after the run is `tiles` of the argument. -/
theorem final (c : Dev nD) : (dats m 0 c).arrAt 3 cfg0.N = tiles (m ((c : Thread nD τ).loc main_arg0)) :=
  (dats m 0 c).arrAt_eq_of_cover 3 (tiles (m ((c : Thread nD τ).loc main_arg0))) (fun t _ => flushed_eq m c t) cover

/-! ## The host operation after the region: the output re-laid as [16, 4096, 1] -/

/-- The output array [16, 32, 128] re-laid as [16, 4096, 1]: entry (b, f, 0) is entry (b, f / 128, f % 128). -/
theorem relaid_out_apply (G : S16x32x128.Idx → EReal) (b : Fin 16) (f : Fin 4096) :
    shapeCast S16x4096x1 G shapeCasts_S16x32x128_S16x4096x1 (ix3 b f (0 : Fin 1))
      = G (ix3 b (⟨f.val / 128, by have := f.isLt; omega⟩ : Fin 32) (⟨f.val % 128, Nat.mod_lt _ (by decide)⟩ : Fin 128)) := by
  refine shapeCast_apply G shapeCasts_S16x32x128_S16x4096x1 (ix3 b f (0 : Fin 1)) _ ?_
  rw [Shape.rowMajor_val_three, Shape.rowMajor_val_three]
  show (b.val * 32 + f.val / 128) * 128 + f.val % 128 = (b.val * 4096 + f.val) * 1 + 0
  have := Nat.div_add_mod f.val 128
  omega

/-- The result buffer after the run's last host operation is the output array re-laid. -/
theorem tail_eq (c : Dev nD) :
    (Pipeline.afterTail₀ cfgs (dats m) 0 (V0 m) [hostOps1] c main_v12 : S16x4096x1.Idx → EReal)
      = shapeCast S16x4096x1 (tiles (m ((c : Thread nD τ).loc main_arg0))) shapeCasts_S16x32x128_S16x4096x1 := by
  unfold Pipeline.afterTail₀
  show StableHlo.after hostOps1 _ (Proc.devRef .tc main_v12) = _
  after_results
  have e : (Pipeline.withArrays (cfgs 0).spec c (V0 m c) (fun w => (dats m 0 c).arrAt w (cfgs 0).N) (Proc.devRef .tc main_v11) : S16x32x128.Idx → EReal)
      = tiles (m ((c : Thread nD τ).loc main_arg0)) :=
    (Pipeline.withArrays_arr spec0 launch0.win.arr_inj c _ _ 3).trans (final m c)
  funext i
  exact congrArg (fun G => shapeCast S16x4096x1 G shapeCasts_S16x32x128_S16x4096x1 i) e

/-- The result buffer after the run is the kernel's form of the specification. -/
theorem result_eq (c : Dev nD) :
    (Pipeline.afterTail₀ cfgs (dats m) 0 (V0 m) [hostOps1] c main_v12 : S16x4096x1.Idx → EReal)
      = Cert.Energy.outKer (m ((c : Thread nD τ).loc main_arg0)) := by
  rw [tail_eq]
  funext i
  obtain ⟨b, f, z, rfl⟩ : ∃ (b : Fin 16) (f : Fin 4096) (z : Fin 1), i = ix3 b f z := ⟨i 0, i 1, i 2, eq_ix3 i⟩
  obtain rfl : z = 0 := Subsingleton.elim _ _
  rw [relaid_out_apply]
  show Cert.Energy.kerE (Cert.Energy.row _ b) (128 * (f.val / 128) + f.val % 128) = Cert.Energy.kerE (Cert.Energy.row _ b) f.val
  rw [Nat.div_add_mod]

/-! ## The run -/

/-- Every weakly fair execution of the kernel's program terminates with the result buffer at the kernel's form of the
    specification of the argument, the argument unchanged. -/
theorem run : θ_run defs (onTc (τ := τ) (main (F := Ideal))) ⟨m, fun _ => 0, ρ⟩ fun r => ∀ c : Dev nD,
      r.2.mem ((c : Thread nD τ).loc main_v12) = Cert.Energy.outKer (m ((c : Thread nD τ).loc main_arg0))
      ∧ r.2.mem ((c : Thread nD τ).loc main_arg0) = m ((c : Thread nD τ).loc main_arg0) :=
  (θ_run defs _ _).mono (fun r h c =>
      ⟨((h c).2 main_v12 (Pipeline.mem_restRefs_of main_v12 (by decide) (by decide))).trans (result_eq m c),
       ((h c).2 main_arg0 (Pipeline.mem_restRefs_of main_arg0 (by decide) (by decide))).trans (W_main_arg0 m (dats m) c)⟩)
    (run_main m ρ)

end Cert.KernelIdeal.KerValue

end
-- ==== Proof.RefTerm.lean ====
/-
  The reference program's result as one pure function of its argument array, stage by stage.

  Each definition below is one tensor value (or a short run of values) of the program, written with
  the same operation, the same arguments and the same shape facts as the printed line it transcribes,
  at the ideal instance (floats are extended reals). In order:

  * the reflect padding of every row by 512 entries on each side: entries 1 … 512 reversed in front
    of the row, then entries 1048575 … 1049086 of that (the row's entries 1048063 … 1048574) reversed
    behind it;
  * the table of gather positions, entry (f, n) being 256 f + n, with the wrap of a negative
    position by the padded length (never taken: every position is non-negative);
  * the gather of the padded row at those positions, its first 4096 frames, their squares, the sum
    over each frame from zero, the quotient by 1024 and the square root.
-/
import proofs.«111157_j30889404793022_2_alg».proof.ReferenceIdeal
import proofs.«111157_j30889404793022_2_alg».proof.Proof.Gen.ReferenceIdeal
import Idealize.ShloMosaic.PureOps.Ideal

noncomputable section

namespace Cert.ReferenceIdeal.RefValue

open Cert.ReferenceIdeal Idealize.ShloMosaic
open Cert.ReferenceIdeal.Facts₀

/-! ## The padded rows -/

/-- Entries 1 … 512 of each row. -/
def headSlice (x : FVec Ideal S16x1048576 .f32) : FVec Ideal S16x512 .f32 :=
  extractStridedSlice S16x512 ![0, 1] x slices_S16x1048576_S16x512_0_1

/-- The same, reversed along the row: the left pad. -/
def headFlip (x : FVec Ideal S16x1048576 .f32) : FVec Ideal S16x512 .f32 :=
  Host.reverse [1] (headSlice x)

/-- The left pad in front of the row. -/
def leftPadded (x : FVec Ideal S16x1048576 .f32) : FVec Ideal S16x1049088 .f32 :=
  concatenate S16x1049088 1 [⟨S16x512, headFlip x⟩, ⟨S16x1048576, x⟩] concatenates_S16x512_S16x1048576_S16x1049088_d1

/-- Entries 1048575 … 1049086 of the left-padded row: the 512 entries before the row's last. -/
def tailSlice (x : FVec Ideal S16x1048576 .f32) : FVec Ideal S16x512 .f32 :=
  extractStridedSlice S16x512 ![0, 1048575] (leftPadded x) slices_S16x1049088_S16x512_0_1048575

/-- The same, reversed along the row: the right pad. -/
def tailFlip (x : FVec Ideal S16x1048576 .f32) : FVec Ideal S16x512 .f32 :=
  Host.reverse [1] (tailSlice x)

/-- The row padded by reflection on both sides. -/
def padded (x : FVec Ideal S16x1048576 .f32) : FVec Ideal S16x1049600 .f32 :=
  concatenate S16x1049600 1 [⟨S16x1049088, leftPadded x⟩, ⟨S16x512, tailFlip x⟩] concatenates_S16x1049088_S16x512_S16x1049600_d1

/-! ## The gather positions -/

/-- Frame `f`'s first position, `256 f`, as a column. -/
def frameStart : IVec S4097x1 32 :=
  muli (broadcastInDim S4097x1 ![0] bcast_S4097_S4097x1_0 (iotaInDim S4097 32 0))
    (broadcastInDim S4097x1 ![] bcast_S_S4097x1 (constantI S_ 32 256#32))

/-- The offset `n` within a frame, as a row. -/
def laneIdx : IVec S1x1024 32 :=
  broadcastInDim S1x1024 ![1] bcast_S1024_S1x1024_1 (iotaInDim S1024 32 0)

/-- Position `256 f + n` at entry `(f, n)`. -/
def rawIdx : IVec S4097x1024 32 :=
  addi (broadcastInDim S4097x1024 ![0, 1] bcast_S4097x1_S4097x1024_0_1 frameStart)
    (broadcastInDim S4097x1024 ![0, 1] bcast_S1x1024_S4097x1024_0_1 laneIdx)

/-- Whether the position is negative. -/
def negMask : IVec S4097x1024 1 :=
  cmpi .slt rawIdx (broadcastInDim S4097x1024 ![] bcast_S_S4097x1024 (constantI S_ 32 0#32))

/-- The position moved up by the padded length. -/
def wrappedIdx : IVec S4097x1024 32 :=
  addi rawIdx (broadcastInDim S4097x1024 ![] bcast_S_S4097x1024 (constantI S_ 32 1049600#32))

/-- The position, a negative one wrapped. -/
def selIdx : IVec S4097x1024 32 :=
  select negMask wrappedIdx rawIdx

/-- The same with the trailing index-vector axis of length one. -/
def frameIdx : IVec S4097x1024x1 32 :=
  broadcastInDim S4097x1024x1 ![0, 1] bcast_S4097x1024_S4097x1024x1_0_1 selIdx

/-! ## The frames and their energy -/

/-- The padded rows read at the positions: entry `(b, f, n)` is padded row `b` at `256 f + n`. -/
def gathered (x : FVec Ideal S16x1048576 .f32) : FVec Ideal S16x4097x1024 .f32 :=
  Host.gather gather_S16x1049600_S4097x1024x1_S16x4097x1024_0_1_n_n_1_2_161 (padded x) frameIdx

/-- The first 4096 frames. -/
def frames (x : FVec Ideal S16x1048576 .f32) : FVec Ideal S16x4096x1024 .f32 :=
  extractStridedSlice S16x4096x1024 ![0, 0, 0] (gathered x) slices_S16x4097x1024_S16x4096x1024_0_0_0

/-- Their squares. -/
def squares (x : FVec Ideal S16x1048576 .f32) : FVec Ideal S16x4096x1024 .f32 :=
  mulf (frames x) (frames x)

/-- The sum of each frame's squares, from zero. -/
def sums (x : FVec Ideal S16x1048576 .f32) : FVec Ideal S16x4096 .f32 :=
  Host.reduceAdd (squares x) (constant S_ .f32 0x00000000#32) reducesTo_S16x4096x1024_S16x4096_d2 h_S_

/-- The result: the square root of each sum's quotient by 1024, with a trailing axis of length one. -/
def refTerm (x : FVec Ideal S16x1048576 .f32) : FVec Ideal S16x4096x1 .f32 :=
  Host.sqrt (Host.divf (broadcastInDim S16x4096x1 ![0, 1] bcast_S16x4096_S16x4096x1_0_1 (sums x))
    (broadcastInDim S16x4096x1 ![] bcast_S_S16x4096x1 (constant S_ .f32 0x44800000#32)))

end Cert.ReferenceIdeal.RefValue

end
-- ==== Proof.RefRun.lean ====
/-
  The reference program's run. @main is a straight line of host operations once the two outlined
  functions it calls are unfolded at their call sites (the padding function, which itself calls the
  reversal twice): thirty-seven operations, listed below in the program's order over the buffers the
  calls' records name. Every weakly fair execution then terminates with each buffer at the fold of the
  operations over the launch contents; read at the result buffer that fold is the staged term of
  RefTerm.lean applied to the argument's launch contents, and at the argument buffer it is the launch
  contents themselves, no operation writing there.
-/
import proofs.«111157_j30889404793022_2_alg».proof.Proof.RefTerm
import proofs.«111157_j30889404793022_2_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in order, the calls unfolded: the scalar zero the padding function is passed
    (and does not read); the padding function's eight (two slices of the argument, the reversal, the
    concatenation in front of the row, two slices of that, the reversal, the concatenation behind);
    then @main's own twenty-eight. -/
abbrev ops : List (HloOp τ sig (Elt F)) :=
  [ nullary main_c (constantI S_ 32 0#32),
    TRef.unary (.of main_arg0 : TRef sig ⟨S16x1048576, .f32⟩) main_call0.v0 (extractStridedSlice S16x1 ![0, 0] · slices_S16x1048576_S16x1_0_0),
    TRef.unary (.of main_arg0 : TRef sig ⟨S16x1048576, .f32⟩) main_call0.v1 (extractStridedSlice S16x512 ![0, 1] · slices_S16x1048576_S16x512_0_1),
    TRef.unary main_call0.v1 main_call0.call0.v0 (Host.reverse [1]),
    TRef.binary main_call0.call0.v0 (.of main_arg0 : TRef sig ⟨S16x1048576, .f32⟩) main_call0.v3 (fun a b => concatenate S16x1049088 1 [⟨S16x512, a⟩, ⟨S16x1048576, b⟩] concatenates_S16x512_S16x1048576_S16x1049088_d1),
    TRef.unary main_call0.v3 main_call0.v4 (extractStridedSlice S16x1 ![0, 1049087] · slices_S16x1049088_S16x1_0_1049087),
    TRef.unary main_call0.v3 main_call0.v5 (extractStridedSlice S16x512 ![0, 1048575] · slices_S16x1049088_S16x512_0_1048575),
    TRef.unary main_call0.v5 main_call0.call1.v0 (Host.reverse [1]),
    TRef.binary main_call0.v3 main_call0.call1.v0 main_call0.v7 (fun a b => concatenate S16x1049600 1 [⟨S16x1049088, a⟩, ⟨S16x512, b⟩] concatenates_S16x1049088_S16x512_S16x1049600_d1),
    nullary main_v1 (iotaInDim S4097 32 0),
    unary main_v1 main_v2 (broadcastInDim S4097x1 ![0] bcast_S4097_S4097x1_0 : (⟨S4097, .i32⟩ : BufTy).Contents (Elt F) → (⟨S4097x1, .i32⟩ : BufTy).Contents (Elt F)),
    nullary main_c_0 (constantI S_ 32 256#32),
    unary main_c_0 main_v3 (broadcastInDim S4097x1 ![] bcast_S_S4097x1 : (⟨S_, .i32⟩ : BufTy).Contents (Elt F) → (⟨S4097x1, .i32⟩ : BufTy).Contents (Elt F)),
    binary main_v2 main_v3 main_v4 (muli : (⟨S4097x1, .i32⟩ : BufTy).Contents (Elt F) → (⟨S4097x1, .i32⟩ : BufTy).Contents (Elt F) → (⟨S4097x1, .i32⟩ : BufTy).Contents (Elt F)),
    nullary main_v5 (iotaInDim S1024 32 0),
    unary main_v5 main_v6 (broadcastInDim S1x1024 ![1] bcast_S1024_S1x1024_1 : (⟨S1024, .i32⟩ : BufTy).Contents (Elt F) → (⟨S1x1024, .i32⟩ : BufTy).Contents (Elt F)),
    unary main_v4 main_v7 (broadcastInDim S4097x1024 ![0, 1] bcast_S4097x1_S4097x1024_0_1 : (⟨S4097x1, .i32⟩ : BufTy).Contents (Elt F) → (⟨S4097x1024, .i32⟩ : BufTy).Contents (Elt F)),
    unary main_v6 main_v8 (broadcastInDim S4097x1024 ![0, 1] bcast_S1x1024_S4097x1024_0_1 : (⟨S1x1024, .i32⟩ : BufTy).Contents (Elt F) → (⟨S4097x1024, .i32⟩ : BufTy).Contents (Elt F)),
    binary main_v7 main_v8 main_v9 (addi : (⟨S4097x1024, .i32⟩ : BufTy).Contents (Elt F) → (⟨S4097x1024, .i32⟩ : BufTy).Contents (Elt F) → (⟨S4097x1024, .i32⟩ : BufTy).Contents (Elt F)),
    nullary main_c_1 (constantI S_ 32 0#32),
    unary main_c_1 main_v10 (broadcastInDim S4097x1024 ![] bcast_S_S4097x1024 : (⟨S_, .i32⟩ : BufTy).Contents (Elt F) → (⟨S4097x1024, .i32⟩ : BufTy).Contents (Elt F)),
    binary main_v9 main_v10 main_v11 (cmpi .slt : (⟨S4097x1024, .i32⟩ : BufTy).Contents (Elt F) → (⟨S4097x1024, .i32⟩ : BufTy).Contents (Elt F) → (⟨S4097x1024, .i1⟩ : BufTy).Contents (Elt F)),
    nullary main_c_2 (constantI S_ 32 1049600#32),
    unary main_c_2 main_v12 (broadcastInDim S4097x1024 ![] bcast_S_S4097x1024 : (⟨S_, .i32⟩ : BufTy).Contents (Elt F) → (⟨S4097x1024, .i32⟩ : BufTy).Contents (Elt F)),
    binary main_v9 main_v12 main_v13 (addi : (⟨S4097x1024, .i32⟩ : BufTy).Contents (Elt F) → (⟨S4097x1024, .i32⟩ : BufTy).Contents (Elt F) → (⟨S4097x1024, .i32⟩ : BufTy).Contents (Elt F)),
    ternary main_v11 main_v13 main_v9 main_v14 (select : (⟨S4097x1024, .i1⟩ : BufTy).Contents (Elt F) → (⟨S4097x1024, .i32⟩ : BufTy).Contents (Elt F) → (⟨S4097x1024, .i32⟩ : BufTy).Contents (Elt F) → (⟨S4097x1024, .i32⟩ : BufTy).Contents (Elt F)),
    unary main_v14 main_v15 (broadcastInDim S4097x1024x1 ![0, 1] bcast_S4097x1024_S4097x1024x1_0_1 : (⟨S4097x1024, .i32⟩ : BufTy).Contents (Elt F) → (⟨S4097x1024x1, .i32⟩ : BufTy).Contents (Elt F)),
    binary main_v0 main_v15 main_v16 ((fun x i => Host.gather gather_S16x1049600_S4097x1024x1_S16x4097x1024_0_1_n_n_1_2_161 x i) : (⟨S16x1049600, .f32⟩ : BufTy).Contents (Elt F) → (⟨S4097x1024x1, .i32⟩ : BufTy).Contents (Elt F) → (⟨S16x4097x1024, .f32⟩ : BufTy).Contents (Elt F)),
    unary main_v16 main_v17 ((extractStridedSlice S16x4096x1024 ![0, 0, 0] · slices_S16x4097x1024_S16x4096x1024_0_0_0) : (⟨S16x4097x1024, .f32⟩ : BufTy).Contents (Elt F) → (⟨S16x4096x1024, .f32⟩ : BufTy).Contents (Elt F)),
    binary main_v17 main_v17 main_v18 (mulf : (⟨S16x4096x1024, .f32⟩ : BufTy).Contents (Elt F) → (⟨S16x4096x1024, .f32⟩ : BufTy).Contents (Elt F) → (⟨S16x4096x1024, .f32⟩ : BufTy).Contents (Elt F)),
    nullary main_cst (constant S_ .f32 0x00000000#32),
    binary main_v18 main_cst main_v19 ((fun x v => Host.reduceAdd x v reducesTo_S16x4096x1024_S16x4096_d2 h_S_) : (⟨S16x4096x1024, .f32⟩ : BufTy).Contents (Elt F) → (⟨S_, .f32⟩ : BufTy).Contents (Elt F) → (⟨S16x4096, .f32⟩ : BufTy).Contents (Elt F)),
    unary main_v19 main_v20 (broadcastInDim S16x4096x1 ![0, 1] bcast_S16x4096_S16x4096x1_0_1 : (⟨S16x4096, .f32⟩ : BufTy).Contents (Elt F) → (⟨S16x4096x1, .f32⟩ : BufTy).Contents (Elt F)),
    nullary main_cst_3 (constant S_ .f32 0x44800000#32),
    unary main_cst_3 main_v21 (broadcastInDim S16x4096x1 ![] bcast_S_S16x4096x1 : (⟨S_, .f32⟩ : BufTy).Contents (Elt F) → (⟨S16x4096x1, .f32⟩ : BufTy).Contents (Elt F)),
    binary main_v20 main_v21 main_v22 (Host.divf : (⟨S16x4096x1, .f32⟩ : BufTy).Contents (Elt F) → (⟨S16x4096x1, .f32⟩ : BufTy).Contents (Elt F) → (⟨S16x4096x1, .f32⟩ : BufTy).Contents (Elt F)),
    unary main_v22 main_v23 (Host.sqrt : (⟨S16x4096x1, .f32⟩ : BufTy).Contents (Elt F) → (⟨S16x4096x1, .f32⟩ : BufTy).Contents (Elt F)) ]

-- thirty-seven binds re-associated under the unfolded calls
set_option maxRecDepth 2048 in
/-- @main is that straight line: the two functions' bodies unfolded at their calls, both sides are one chain of
    host steps once sequencing is reassociated. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub ..,
    nullary_bufs_sub .., unary_bufs_sub .., nullary_bufs_sub .., unary_bufs_sub .., binary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., binary_bufs_sub .., unary_bufs_sub ..,
    nullary_bufs_sub .., unary_bufs_sub .., binary_bufs_sub .., unary_bufs_sub ..⟩

/-- At the compiled mesh, from any memory with zero counters: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold read at the result buffer is the staged term of the argument's contents: each operation's result
    at its own buffer is its function of its operands' contents, every other buffer keeps what it held, and the
    composed term is `refTerm` with its stages unfolded (the typed references' transports are the identity at
    these literal references). The argument's contents stay a variable throughout. -/
theorem result_eq (V : Valuation τ sig (Elt Ideal)) :
    after (ops (F := Ideal)) V (main_v23 : DevRef τ sig) = refTerm (V (main_arg0 : DevRef τ sig)) := by
  after_results_simp
  rfl

/-- No operation writes the argument buffer. -/
theorem arg_eq (V : Valuation τ sig (Elt Ideal)) :
    after (ops (F := Ideal)) V (main_arg0 : DevRef τ sig) = V (main_arg0 : DevRef τ sig) := by
  after_results_simp

/-- At the compiled mesh, at the ideal instance, from any memory with zero counters: every weakly fair execution
    of @main on the TensorCores terminates with the result buffer at `refTerm` of the argument's launch contents
    and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = refTerm (m ((c.tc : Thread nD τ).loc main_arg0))
      ∧ r.2.mem ((c.tc : Thread nD τ).loc main_arg0) = m ((c.tc : Thread nD τ).loc main_arg0)) :=
  (θ_run defs _ _).mono (fun _ h c => ⟨(h c main_v23).trans (result_eq _), (h c main_arg0).trans (arg_eq _)⟩)
    (run_main m ρ)

end Cert.ReferenceIdeal.RefValue

end
-- ==== Proof.RefValuePad.lean ====
/-
  The reference's reflect padding read at an index.

  The padded array is built from the argument `x : [16, 1048576]` in two steps: the columns 1 … 512 reversed are put in
  front of `x` (a [16, 1049088] array), and the columns 1048575 … 1049086 of THAT array, reversed, are put behind it
  (a [16, 1049600] array). Read at `(b, j)` this is `x (b, 512 - j)` for `j < 512`, `x (b, j - 512)` for
  `512 ≤ j < 1049088`, and for `j ≥ 1049088` column `1049086 - (j - 1049088)` of the first concatenation, which lies
  in its body: `x (b, 2097662 - j)`. That is `Cert.Energy.xpad` of row `b`.
-/
import proofs.«111157_j30889404793022_2_alg».proof.ReferenceIdeal
import proofs.«111157_j30889404793022_2_alg».proof.Proof.Spec
import Idealize.ShloMosaic.Lib.Pipeline.Value
import Idealize.ShloMosaic.Lib.ValueIdx

noncomputable section

namespace Cert.ReferenceIdeal.RefValue

open Idealize.ShloMosaic Idealize.ShloMosaic.ValueIdx

variable {α : Type}

/-- A reversal along axis 1 of a [16, 512] array reads column `511 - j`. -/
theorem reverse_S16x512_apply (y : S16x512.Idx → α) (b : Fin 16) (j : Fin 512) :
    Host.reverse (s := S16x512) [1] y (ix2 b j) = y (ix2 b ⟨511 - j.val, by omega⟩) := by
  unfold Host.reverse
  refine congrArg y (funext fun a => ?_)
  match a with
  | ⟨0, _⟩ => rfl
  | ⟨1, _⟩ => exact Fin.ext (by simp [Fin.rev])

/-- The left reflection — columns 1 … 512 of the argument, reversed — at `(b, j)` is `x (b, 512 - j)`. -/
theorem leftPad_apply (h1 : S16x1048576.Slices ![0, 1] S16x512) (x : S16x1048576.Idx → α) (b : Fin 16) (j : Fin 512) :
    Host.reverse (s := S16x512) [1] (extractStridedSlice S16x512 ![0, 1] x h1) (ix2 b j)
      = x (ix2 b ⟨512 - j.val, by omega⟩) := by
  refine (reverse_S16x512_apply _ b j).trans ?_
  refine extractStridedSlice_apply _ x h1 _ _ fun a => ?_
  match a with
  | ⟨0, _⟩ => show b.val = 0 + b.val; omega
  | ⟨1, _⟩ => show 512 - j.val = 1 + (511 - j.val); omega

/-- The right reflection — columns 1048575 … 1049086 of a [16, 1049088] array, reversed — at `(b, j)` is that
    array at `(b, 1049086 - j)`. -/
theorem rightPad_apply (h5 : S16x1049088.Slices ![0, 1048575] S16x512) (y : S16x1049088.Idx → α) (b : Fin 16) (j : Fin 512) :
    Host.reverse (s := S16x512) [1] (extractStridedSlice S16x512 ![0, 1048575] y h5) (ix2 b j)
      = y (ix2 b ⟨1049086 - j.val, by omega⟩) := by
  refine (reverse_S16x512_apply _ b j).trans ?_
  refine extractStridedSlice_apply _ y h5 _ _ fun a => ?_
  match a with
  | ⟨0, _⟩ => show b.val = 0 + b.val; omega
  | ⟨1, _⟩ => show 1049086 - j.val = 1048575 + (511 - j.val); omega

/-- The first concatenation at a column below 512 reads its first piece. -/
theorem cat1_apply_lt (hc1 : Shape.Concatenates [S16x512, S16x1048576] S16x1049088 1) (l : S16x512.Idx → α)
    (x : S16x1048576.Idx → α) (b : Fin 16) (j : Fin 1049088) (hj : j.val < 512) :
    concatenate S16x1049088 1 [⟨S16x512, l⟩, ⟨S16x1048576, x⟩] hc1 (ix2 b j) = l (ix2 b ⟨j.val, hj⟩) :=
  concatenate_pair_apply_left 1 l x hc1 (ix2 b j) rfl (ix2 b ⟨j.val, hj⟩) fun a =>
    match a with
    | ⟨0, _⟩ => rfl
    | ⟨1, _⟩ => rfl

/-- The first concatenation at a column from 512 on reads the argument, 512 columns earlier. -/
theorem cat1_apply_ge (hc1 : Shape.Concatenates [S16x512, S16x1048576] S16x1049088 1) (l : S16x512.Idx → α)
    (x : S16x1048576.Idx → α) (b : Fin 16) (j : Fin 1049088) (hj : 512 ≤ j.val) :
    concatenate S16x1049088 1 [⟨S16x512, l⟩, ⟨S16x1048576, x⟩] hc1 (ix2 b j) = x (ix2 b ⟨j.val - 512, by omega⟩) :=
  concatenate_pair_apply_right 1 l x hc1 (ix2 b j) rfl rfl (ix2 b ⟨j.val - 512, by omega⟩)
    (fun a ha =>
      match a, ha with
      | ⟨0, _⟩, _ => rfl
      | ⟨1, _⟩, ha => absurd rfl ha)
    (by show j.val - 512 + 512 = j.val; omega)

/-- The second concatenation at a column below 1049088 reads its first piece. -/
theorem cat2_apply_lt (hc2 : Shape.Concatenates [S16x1049088, S16x512] S16x1049600 1) (y : S16x1049088.Idx → α)
    (r : S16x512.Idx → α) (b : Fin 16) (j : Fin 1049600) (hj : j.val < 1049088) :
    concatenate S16x1049600 1 [⟨S16x1049088, y⟩, ⟨S16x512, r⟩] hc2 (ix2 b j) = y (ix2 b ⟨j.val, hj⟩) :=
  concatenate_pair_apply_left 1 y r hc2 (ix2 b j) rfl (ix2 b ⟨j.val, hj⟩) fun a =>
    match a with
    | ⟨0, _⟩ => rfl
    | ⟨1, _⟩ => rfl

/-- The second concatenation at a column from 1049088 on reads its second piece, 1049088 columns earlier. -/
theorem cat2_apply_ge (hc2 : Shape.Concatenates [S16x1049088, S16x512] S16x1049600 1) (y : S16x1049088.Idx → α)
    (r : S16x512.Idx → α) (b : Fin 16) (j : Fin 1049600) (hj : 1049088 ≤ j.val) :
    concatenate S16x1049600 1 [⟨S16x1049088, y⟩, ⟨S16x512, r⟩] hc2 (ix2 b j) = r (ix2 b ⟨j.val - 1049088, by omega⟩) :=
  concatenate_pair_apply_right 1 y r hc2 (ix2 b j) rfl rfl (ix2 b ⟨j.val - 1049088, by omega⟩)
    (fun a ha =>
      match a, ha with
      | ⟨0, _⟩, _ => rfl
      | ⟨1, _⟩, ha => absurd rfl ha)
    (by show j.val - 1049088 + 1049088 = j.val; omega)

/-- THE PADDED ARRAY AT AN INDEX: entry `j` of row `b` padded by reflection. -/
theorem pad_apply (h1 : S16x1048576.Slices ![0, 1] S16x512)
    (hc1 : Shape.Concatenates [S16x512, S16x1048576] S16x1049088 1)
    (h5 : S16x1049088.Slices ![0, 1048575] S16x512)
    (hc2 : Shape.Concatenates [S16x1049088, S16x512] S16x1049600 1)
    (x : S16x1048576.Idx → EReal) (b : Fin 16) (j : Fin 1049600) :
    concatenate S16x1049600 1
        [⟨S16x1049088, concatenate S16x1049088 1
            [⟨S16x512, Host.reverse [1] (extractStridedSlice S16x512 ![0, 1] x h1)⟩, ⟨S16x1048576, x⟩] hc1⟩,
          ⟨S16x512, Host.reverse [1] (extractStridedSlice S16x512 ![0, 1048575]
            (concatenate S16x1049088 1
              [⟨S16x512, Host.reverse [1] (extractStridedSlice S16x512 ![0, 1] x h1)⟩, ⟨S16x1048576, x⟩] hc1) h5)⟩]
        hc2 (ix2 b j)
      = Cert.Energy.xpad (Cert.Energy.row x b) j.val := by
  unfold Cert.Energy.xpad Cert.Energy.row
  by_cases hA : j.val < 512
  · rw [if_pos hA, dif_pos (by omega)]
    refine (cat2_apply_lt hc2 _ _ b j (by omega)).trans ?_
    refine (cat1_apply_lt hc1 _ x b ⟨j.val, by omega⟩ hA).trans ?_
    exact leftPad_apply h1 x b ⟨j.val, hA⟩
  · rw [if_neg hA]
    by_cases hB : j.val < 1049088
    · rw [if_pos hB, dif_pos (by omega)]
      refine (cat2_apply_lt hc2 _ _ b j hB).trans ?_
      exact cat1_apply_ge hc1 _ x b ⟨j.val, hB⟩ (by show 512 ≤ j.val; omega)
    · rw [if_neg hB, dif_pos (by have := j.isLt; omega)]
      refine (cat2_apply_ge hc2 _ _ b j (by omega)).trans ?_
      refine (rightPad_apply h5 _ b ⟨j.val - 1049088, by have := j.isLt; omega⟩).trans ?_
      refine (cat1_apply_ge hc1 _ x b ⟨1049086 - (j.val - 1049088), by omega⟩
        (by show 512 ≤ 1049086 - (j.val - 1049088); have := j.isLt; omega)).trans ?_
      refine congrArg x (congrArg (ix2 b) (Fin.ext ?_))
      show 1049086 - (j.val - 1049088) - 512 = 2097662 - j.val
      have := j.isLt; omega

end Cert.ReferenceIdeal.RefValue

end
-- ==== Proof.RefValueIdx.lean ====
/-
  The table of gather positions read at an index.

  Entry `(f, n)` of the table is the 32-bit word `f · 256 + n` (the frame's first position plus the offset within the
  frame). For `f < 4097` and `n < 1024` the sum is below `2²⁰ + 2¹¹`, so nothing wraps, the word is `256 f + n` itself,
  it is not negative when read signed, and the wrap-around of a negative position is never taken.
-/
import proofs.«111157_j30889404793022_2_alg».proof.Proof.RefTerm
import Idealize.ShloMosaic.Lib.ValueIdx

noncomputable section

namespace Cert.ReferenceIdeal.RefValue

open Cert.ReferenceIdeal Idealize.ShloMosaic Idealize.ShloMosaic.ValueIdx

/-- A word below `2³¹` read signed is itself. -/
theorem toInt_ofNat_small (k : ℕ) (hk : k < 2147483648) : (BitVec.ofNat 32 k).toInt = (k : Int) := by
  rw [BitVec.toInt_eq_toNat_cond, BitVec.toNat_ofNat]
  have h : k % 2 ^ 32 = k := Nat.mod_eq_of_lt (by omega)
  rw [h, if_pos (by omega)]

/-- A word below `2³¹` is not negative: the signed comparison with zero gives the bit `0`. -/
theorem cmpi_slt_zero_small (k : ℕ) (hk : k < 2147483648) : IntOp.cmpi .slt (BitVec.ofNat 32 k) 0#32 = 0#1 := by
  have h : (BitVec.ofNat 32 k).slt 0#32 = false := by
    unfold BitVec.slt
    rw [toInt_ofNat_small k hk]
    simp
  show BitVec.ofBool ((BitVec.ofNat 32 k).slt 0#32) = 0#1
  rw [h]; rfl

/-- Entry `(f, n)` of the sum of the frame starts and the offsets is the word `256 f + n`. -/
theorem rawIdx_apply (f : Fin 4097) (n : Fin 1024) : rawIdx (ix2 f n) = BitVec.ofNat 32 (256 * f.val + n.val) := by
  have h : rawIdx (ix2 f n) = BitVec.ofNat 32 f.val * 256#32 + BitVec.ofNat 32 n.val := rfl
  rw [h]
  apply BitVec.eq_of_toNat_eq
  simp only [BitVec.toNat_add, BitVec.toNat_mul, BitVec.toNat_ofNat]
  omega

/-- The select keeps the position: it is not negative. -/
theorem selIdx_apply (f : Fin 4097) (n : Fin 1024) : selIdx (ix2 f n) = BitVec.ofNat 32 (256 * f.val + n.val) := by
  have h : selIdx (ix2 f n)
      = Scalar.select (IntOp.cmpi .slt (rawIdx (ix2 f n)) 0#32) (wrappedIdx (ix2 f n)) (rawIdx (ix2 f n)) := rfl
  rw [h, rawIdx_apply, cmpi_slt_zero_small _ (by have := f.isLt; have := n.isLt; omega), select_zero]

/-- THE TABLE OF GATHER POSITIONS AT AN INDEX: entry `(f, n, 0)` is the word `256 f + n`. -/
theorem frameIdx_apply (f : Fin 4097) (n : Fin 1024) :
    frameIdx (ix3 f n (0 : Fin 1)) = BitVec.ofNat 32 (256 * f.val + n.val) :=
  (rfl : frameIdx (ix3 f n (0 : Fin 1)) = selIdx (ix2 f n)).trans (selIdx_apply f n)

end Cert.ReferenceIdeal.RefValue

end
-- ==== Proof.RefValueTail.lean ====
/-
  The end of the reference read at an index: from the gathered frames to the result.

  The first 4096 frames of the gathered array `g : [16, 4097, 1024]` are squared entry by entry, each frame is summed
  from the initial value (the word of `+0.0`), the sum is divided by the word of `1024.0` and the square root is taken.
  At `(b, f, 0)` this is the square root of the quotient of `0 + ∑ₙ g (b, f, n)²`.
-/
import proofs.«111157_j30889404793022_2_alg».proof.ReferenceIdeal
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Idealize.ShloMosaic Idealize.ShloMosaic.ValueIdx

/-- Inserting coordinate `k` on the summed axis over `(b, f)` gives `(b, f, k)`. -/
theorem lift_ix2 (h : Shape.Reduces S16x4096x1024 [2] S16x4096) (b : Fin 16) (f : Fin 4096) (k : Fin 1024) :
    h.lift (ix2 b f) k = ix3 b f k := by
  funext a
  match a with
  | ⟨0, _⟩ => rfl
  | ⟨1, _⟩ => rfl
  | ⟨2, _⟩ => rfl

/-- The first 4096 frames at `(b, f, n)` are the gathered array there. -/
theorem frames_apply (hs : S16x4097x1024.Slices ![0, 0, 0] S16x4096x1024) (g : FVec Ideal S16x4097x1024 .f32)
    (b : Fin 16) (f : Fin 4096) (n : Fin 1024) :
    extractStridedSlice S16x4096x1024 ![0, 0, 0] g hs (ix3 b f n) = g (ix3 b ⟨f.val, by omega⟩ n) :=
  extractStridedSlice_apply _ g hs _ _ fun a =>
    match a with
    | ⟨0, _⟩ => by show b.val = 0 + b.val; omega
    | ⟨1, _⟩ => by show f.val = 0 + f.val; omega
    | ⟨2, _⟩ => by show n.val = 0 + n.val; omega

/-- THE END OF THE REFERENCE AT AN INDEX. -/
theorem tail_apply (hs : S16x4097x1024.Slices ![0, 0, 0] S16x4096x1024) (hr : S16x4096x1024.ReducesTo [2] S16x4096)
    (hS : 0 < S_.numel) (hb1 : S16x4096.BroadcastsInDim S16x4096x1 (![0, 1] : Fin 2 → Fin S16x4096x1.rank))
    (hb2 : S_.BroadcastsInDim S16x4096x1 (![] : Fin 0 → Fin S16x4096x1.rank))
    (g : FVec Ideal S16x4097x1024 .f32) (b : Fin 16) (f : Fin 4096) :
    Host.sqrt (Host.divf
        (broadcastInDim S16x4096x1 ![0, 1] hb1
          (Host.reduceAdd (mulf (extractStridedSlice S16x4096x1024 ![0, 0, 0] g hs)
              (extractStridedSlice S16x4096x1024 ![0, 0, 0] g hs))
            (constant S_ .f32 0x00000000#32) hr hS))
        (broadcastInDim S16x4096x1 ![] hb2 (constant S_ .f32 0x44800000#32))) (ix3 b f (0 : Fin 1))
      = Ideal.sqrt (Ideal.div
          (Ideal.ofBits .f32 0x00000000#32
            + ∑ n : Fin 1024, g (ix3 b ⟨f.val, by omega⟩ n) * g (ix3 b ⟨f.val, by omega⟩ n))
          (Ideal.ofBits .f32 0x44800000#32)) := by
  have hR : Shape.Reduces S16x4096x1024 [2] S16x4096 := by decide
  have e1 : ∀ (y : FVec Ideal S16x4096x1 .f32) (i : S16x4096x1.Idx), Host.sqrt y i = Ideal.sqrt (y i) := fun _ _ => rfl
  refine (e1 _ _).trans (congrArg Ideal.sqrt ?_)
  refine (hostDivf_apply _ _ _).trans ?_
  refine congrArg₂ Ideal.div ?_ ?_
  · refine (broadcastInDim_apply _ hb1 _ (ix3 b f (0 : Fin 1)) (ix2 b f) fun a =>
      match a with
      | ⟨0, _⟩ => rfl
      | ⟨1, _⟩ => rfl).trans ?_
    refine (hostReduceAdd_apply _ _ hr hS _).trans ?_
    refine (Ideal.hostReduceAdd_single hr hR _ _ _).trans ?_
    refine congrArg₂ (· + ·) rfl (Finset.sum_congr rfl fun k _ => ?_)
    rw [lift_ix2 hR b f k]
    show extractStridedSlice S16x4096x1024 ![0, 0, 0] g hs (ix3 b f k)
        * extractStridedSlice S16x4096x1024 ![0, 0, 0] g hs (ix3 b f k) = _
    rw [frames_apply hs g b f k]
  · exact (broadcastInDim_scalar_apply hb2 _ _).trans rfl

end Cert.ReferenceIdeal.RefValue

end
-- ==== Proof.RefGather.lean ====
/-
  The reference's gather read at an index.

  The gather takes rows of a [16, 1049600] array at start indices held in a [4097, 1024, 1] array:
  result element (b, f, n) is the operand's element (b, k), where k is the start index at (f, n, 0)
  read as a signed integer and clamped into [0, 1049600 - 1]. On operand axis 0 (an offset axis of
  slice size 16, not in the start index map) the operand coordinate is the result's coordinate b; on
  operand axis 1 (collapsed, slice size 1, the one axis the start index map names) it is the clamped
  start index. A start index that is the word of a natural number k < 1049600 < 2³¹ is read back as k
  and nothing clamps.
-/
import proofs.«111157_j30889404793022_2_alg».proof.ReferenceIdeal
import Idealize.ShloMosaic.Lib.ValueIdx

noncomputable section

namespace Cert.ReferenceIdeal.RefValue

open Idealize.ShloMosaic Idealize.ShloMosaic.ValueIdx
open Cert.ReferenceIdeal Facts₀ Facts

variable [Facts]

local notation "gd" => gather_S16x1049600_S4097x1024x1_S16x4097x1024_0_1_n_n_1_2_161

/-- The 32-bit word of a natural number below 1049600, read signed, is that number. -/
theorem ofNat_toInt_toNat (k : ℕ) (hk : k < 1049600) : (BitVec.ofNat 32 k).toInt.toNat = k := by
  have h1 : (BitVec.ofNat 32 k).toNat = k := by
    rw [BitVec.toNat_ofNat]; exact Nat.mod_eq_of_lt (by omega)
  rw [BitVec.toInt_eq_toNat_cond, h1, if_pos (by omega)]
  exact Int.toNat_natCast k

/-- Operand axis 1 is the axis the start index map names. -/
theorem one_mem_startIndexMap : (⟨1, by decide⟩ : Fin S16x1049600.rank) ∈ (gd).startIndexMap :=
  List.mem_singleton.mpr rfl

/-- Operand axis 0 is not in the start index map. -/
theorem zero_not_mem_startIndexMap : (⟨0, by decide⟩ : Fin S16x1049600.rank) ∉ (gd).startIndexMap := by
  intro h
  have h' := List.mem_singleton.mp h
  exact absurd (congrArg Fin.val h') (by decide)

/-- Operand axis 0 is kept (neither collapsed nor batching): the result's offset axis reads it. -/
theorem zero_mem_sKept : (⟨0, by decide⟩ : Fin S16x1049600.rank) ∈ (gd).sKept := by
  refine ((gd).mem_sKept _).mpr ⟨?_, List.not_mem_nil⟩
  intro h
  have h' := List.mem_singleton.mp h
  exact absurd (congrArg Fin.val h') (by decide)

/-- Operand axis 1 is collapsed, so not kept. -/
theorem one_not_mem_sKept : (⟨1, by decide⟩ : Fin S16x1049600.rank) ∉ (gd).sKept :=
  fun h => (((gd).mem_sKept _).mp h).1 (List.mem_singleton.mpr rfl)

/-- Result index (b, f, n) reads its start index at (f, n, 0) of the start indices. -/
theorem siIdx_eq (b : Fin 16) (f : Fin 4097) (n : Fin 1024) :
    (gd).siIdx (ix3 b f n) ⟨List.idxOf (⟨1, by decide⟩ : Fin S16x1049600.rank) (gd).startIndexMap,
      List.idxOf_lt_length_iff.2 one_mem_startIndexMap⟩ = ix3 f n (0 : Fin 1) := by
  funext c; refine Fin.ext ?_
  match c with
  | ⟨0, _⟩ => rfl
  | ⟨1, _⟩ => rfl
  | ⟨2, _⟩ => rfl

/-- The operand index result index (b, f, n) reads, when the start index at (f, n, 0) is the word of k. -/
theorem operandIdx_eq (I : S4097x1024x1.Idx → BitVec 32) (b : Fin 16) (f : Fin 4097) (n : Fin 1024)
    (k : ℕ) (hk : k < 1049600) (hI : I (ix3 f n (0 : Fin 1)) = BitVec.ofNat 32 k) :
    (gd).operandIdx (ix3 b f n) I = ix2 b ⟨k, hk⟩ := by
  funext a; refine Fin.ext ?_
  match a with
  | ⟨0, _⟩ =>
    show (gd).start (ix3 b f n) I ⟨0, _⟩ + (gd).batchCoord (ix3 b f n) ⟨0, _⟩ + (gd).offCoord (ix3 b f n) ⟨0, _⟩ = b.val
    rw [GatherDims.batchCoord_eq_zero _ _ _ List.not_mem_nil]
    have hs : (gd).start (ix3 b f n) I ⟨0, by decide⟩ = 0 := by
      unfold GatherDims.start
      rw [dif_neg zero_not_mem_startIndexMap]
    have ho : (gd).offCoord (ix3 b f n) ⟨0, by decide⟩ = b.val := by
      unfold GatherDims.offCoord
      rw [dif_pos zero_mem_sKept]
      rfl
    rw [hs, ho, Nat.add_zero, Nat.zero_add]
  | ⟨1, _⟩ =>
    show (gd).start (ix3 b f n) I ⟨1, _⟩ + (gd).batchCoord (ix3 b f n) ⟨1, _⟩ + (gd).offCoord (ix3 b f n) ⟨1, _⟩ = k
    rw [GatherDims.batchCoord_eq_zero _ _ _ List.not_mem_nil,
      GatherDims.offCoord_eq_zero _ _ _ one_not_mem_sKept]
    have hs : (gd).start (ix3 b f n) I ⟨1, by decide⟩ = k := by
      unfold GatherDims.start
      rw [dif_pos one_mem_startIndexMap, siIdx_eq b f n, hI, ofNat_toInt_toNat k hk]
      show min k (1049600 - 1) = k
      omega
    rw [hs, Nat.add_zero]

/-- THE GATHER READ AT (b, f, n): the operand's row b at the start index k held at (f, n, 0). -/
theorem gather_apply (P : S16x1049600.Idx → EReal) (I : S4097x1024x1.Idx → BitVec 32)
    (b : Fin 16) (f : Fin 4097) (n : Fin 1024) (k : ℕ) (hk : k < 1049600)
    (hI : I (ix3 f n (0 : Fin 1)) = BitVec.ofNat 32 k) :
    Host.gather gather_S16x1049600_S4097x1024x1_S16x4097x1024_0_1_n_n_1_2_161 P I (ix3 b f n) = P (ix2 b ⟨k, hk⟩) := by
  unfold Host.gather
  exact congrArg P (operandIdx_eq I b f n k hk hI)

end Cert.ReferenceIdeal.RefValue

end
-- ==== Proof.RefValue.lean ====
/-
  The reference's result, read at an index, is the specification.

  The padded array at `(b, j)` is entry `j` of row `b` padded by reflection; the table of positions at `(f, n, 0)` is
  the word `256 f + n`, below the padded length, so the gathered array at `(b, f, n)` is that entry of the padded row;
  and the end of the program turns the gathered frames into the square root of the mean of their squares. Put together,
  entry `(b, f, 0)` of the result is `Cert.Energy.refE` of row `b` at frame `f`.
-/
import proofs.«111157_j30889404793022_2_alg».proof.Proof.Spec
import proofs.«111157_j30889404793022_2_alg».proof.Proof.RefTerm
import proofs.«111157_j30889404793022_2_alg».proof.Proof.RefValuePad
import proofs.«111157_j30889404793022_2_alg».proof.Proof.RefValueIdx
import proofs.«111157_j30889404793022_2_alg».proof.Proof.RefValueTail
import proofs.«111157_j30889404793022_2_alg».proof.Proof.RefGather

noncomputable section

open scoped BigOperators

namespace Cert.ReferenceIdeal.RefValue

open Cert.ReferenceIdeal Idealize.ShloMosaic Idealize.ShloMosaic.ValueIdx
open Cert.ReferenceIdeal.Facts₀

/-- The padded array at `(b, j)`: entry `j` of row `b` padded by reflection. -/
theorem padded_apply (x : FVec Ideal S16x1048576 .f32) (b : Fin 16) (j : Fin 1049600) :
    padded x (ix2 b j) = Cert.Energy.xpad (Cert.Energy.row x b) j.val :=
  pad_apply slices_S16x1048576_S16x512_0_1 concatenates_S16x512_S16x1048576_S16x1049088_d1
    slices_S16x1049088_S16x512_0_1048575 concatenates_S16x1049088_S16x512_S16x1049600_d1 x b j

/-- The gathered array at `(b, f, n)`: entry `256 f + n` of the padded row `b`. -/
theorem gathered_apply (x : FVec Ideal S16x1048576 .f32) (b : Fin 16) (f : Fin 4097) (n : Fin 1024) :
    gathered x (ix3 b f n) = Cert.Energy.xpad (Cert.Energy.row x b) (256 * f.val + n.val) :=
  (gather_apply (padded x) frameIdx b f n (256 * f.val + n.val) (by have := f.isLt; have := n.isLt; omega)
    (frameIdx_apply f n)).trans (padded_apply x b ⟨256 * f.val + n.val, _⟩)

/-- THE REFERENCE'S RESULT IS THE SPECIFICATION. -/
theorem refTerm_eq (x : FVec Ideal S16x1048576 .f32) : refTerm x = Cert.Energy.outRef x := by
  funext i
  obtain ⟨b, f, z, rfl⟩ : ∃ (b : Fin 16) (f : Fin 4096) (z : Fin 1), i = ix3 b f z := ⟨i 0, i 1, i 2, eq_ix3 i⟩
  obtain rfl : z = 0 := Subsingleton.elim _ _
  refine (tail_apply slices_S16x4097x1024_S16x4096x1024_0_0_0 reducesTo_S16x4096x1024_S16x4096_d2 h_S_
    bcast_S16x4096_S16x4096x1_0_1 bcast_S_S16x4096x1 (gathered x) b f).trans ?_
  show _ = Cert.Energy.refE (Cert.Energy.row x b) f.val
  unfold Cert.Energy.refE
  have key : ∀ n : Fin 1024, gathered x (ix3 b ⟨f.val, by omega⟩ n)
      = Cert.Energy.xpad (Cert.Energy.row x b) (256 * f.val + n.val) :=
    fun n => gathered_apply x b ⟨f.val, by omega⟩ n
  simp only [key]

end Cert.ReferenceIdeal.RefValue

end
-- ==== Proof.lean ====
/-
  The certificate of the overlapping-frame RMS energy kernel against its reference.

  The claim: over a signal `x` of 16 rows of 1048576 samples, the kernel and the reference both end with the array
  [16, 4096, 1] whose entry (b, f, 0) is the root-mean-square of the 1024 samples of frame `f` (hop 256) of row `b`
  padded by reflection with 512 samples on each side.

  * The reference pads by two reversed slices and two concatenations, gathers the frames through an integer index
    tensor `256 f + n`, squares, sums 1024 terms onto zero, divides by 1024 and takes the square root: `Cert.Energy.outRef`
    (Proof/RefRun.lean: its run; Proof/RefValue.lean: its result term is `outRef`, index by index).
  * The kernel never forms the padded row: every frame is four consecutive 256-wide chunks of it, the reflected chunks
    are taken as plain slices of the signal (a reflected chunk holds the same samples in reverse order, and a sum of
    squares does not see the order), each chunk is first folded to 128 lanes of partial sums (lanes l and 128 + l), four
    row-shifted copies are added, the lanes are summed, and the total is multiplied by 2⁻¹⁰ under the square root:
    `Cert.Energy.outKer` (Proof/KerHost.lean, KerBlocks.lean, KerPayload.lean, KerRun.lean).
  * The two are one function on the extended reals (Proof/EnergyLaw.lean): the quotient by 1024 is the product with the
    dyadic 2⁻¹⁰, and the two sums have the same terms in another order and grouping — addition of extended reals is
    commutative and associative everywhere, so the precondition (finite inputs) is not used.
  The three frames are the generated ones for the two kernel programs and the reference's run with its result dropped;
  the idealization rewrote nothing, so `preserves` is trivial.
-/
import proofs.«111157_j30889404793022_2_alg».proof.Defs
import proofs.«111157_j30889404793022_2_alg».proof.Proof.Gen.Kernel
import proofs.«111157_j30889404793022_2_alg».proof.Proof.Gen.Kernel.Skeleton
import proofs.«111157_j30889404793022_2_alg».proof.Proof.Gen.Kernel.Launch
import proofs.«111157_j30889404793022_2_alg».proof.Proof.Gen.Kernel.Points
import proofs.«111157_j30889404793022_2_alg».proof.Proof.Gen.Kernel.Frame
import proofs.«111157_j30889404793022_2_alg».proof.Proof.Gen.KernelIdeal
import proofs.«111157_j30889404793022_2_alg».proof.Proof.Gen.KernelIdeal.Skeleton
import proofs.«111157_j30889404793022_2_alg».proof.Proof.Gen.KernelIdeal.Launch
import proofs.«111157_j30889404793022_2_alg».proof.Proof.Gen.KernelIdeal.Points
import proofs.«111157_j30889404793022_2_alg».proof.Proof.Gen.KernelIdeal.Frame
import proofs.«111157_j30889404793022_2_alg».proof.Proof.Gen.ReferenceIdeal
import proofs.«111157_j30889404793022_2_alg».proof.Proof.Gen.Pre_finite_inputs
import proofs.«111157_j30889404793022_2_alg».proof.Proof.EnergyLaw
import proofs.«111157_j30889404793022_2_alg».proof.Proof.KerRun
import proofs.«111157_j30889404793022_2_alg».proof.Proof.RefRun
import proofs.«111157_j30889404793022_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the signal, the kernel's result array ends at `outKer` of it and the reference's at
    `outRef` of it: one function. -/
theorem algebraic : Cert.algebraic_KernelIdeal_ReferenceIdeal := by
  intro m ρ m' ρ' _ hagree
  refine ⟨fun c => Cert.Energy.outKer (m ((c.tc : Thread Cert.KernelIdeal.nD Cert.KernelIdeal.τ).loc Cert.KernelIdeal.main_arg0)),
    Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [Cert.ReferenceIdeal.RefValue.refTerm_eq, hagree c]
  exact (Cert.Energy.outKer_eq_outRef _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
